-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x4096 : Shape := ⟨3, ![4, 256, 4096]⟩
abbrev S4096x4096 : Shape := ⟨2, ![4096, 4096]⟩
abbrev S4096x32x1 : Shape := ⟨3, ![4096, 32, 1]⟩
abbrev S4096 : Shape := ⟨1, ![4096]⟩
abbrev S_ : Shape := ⟨0, ![]⟩

class Facts : Prop where
  bcast_S_S4x256x4096 : S_.BroadcastsInDim S4x256x4096 (![] : Fin 0 → Fin S4x256x4096.rank)
  reducesTo_S4x256x4096_S_d0_1_2 : S4x256x4096.ReducesTo [0, 1, 2] S_
  h_S_ : 0 < S_.numel
  bcast_S_S4096x32x1 : S_.BroadcastsInDim S4096x32x1 (![] : Fin 0 → Fin S4096x32x1.rank)
  reducesTo_S4096x32x1_S_d0_1_2 : S4096x32x1.ReducesTo [0, 1, 2] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_arg6 : FVec F S4096 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S4096 .f32 := Host.absf main_arg6
  let main_cst_8 : FVec F S_ .f32 := constant S_ .f32 0x7F800000#32
  let main_v25 : FVec F S4096 .f32 := broadcastInDim S4096 ![] bcast_S_S4096 main_cst_8
  let main_v26 : IVec S4096 1 := cmpf .olt main_v24 main_v25
  let main_c_9 : IVec S_ 1 := constantI S_ 1 1#1
  let main_v27 : IVec S_ 1 := (fun x v => Host.reduce IntOp.andi x v reducesTo_S4096_S_d0 h_S_) main_v26 main_c_9
  let main_v28 : IVec S_ 1 := andi main_v23 main_v27
  main_v28

def fn {F : FTy → Type} [FloatOps F] (main_arg0 : FVec F S4x256x4096 .f32) (main_arg1 : IVec S4096x4096 32) (main_arg2 : FVec F S4096x32x1 .f32) (main_arg3 : FVec F S4096x32x1 .f32) (main_arg4 : FVec F S4096 .f32) (main_arg5 : FVec F S4096 .f32) (main_arg6 : FVec F S4096 .f32) : IVec S_ 1 :=
  let main_v0 : FVec F S4x256x4096 .f32 := Host.absf main_arg0
  let main_cst : FVec F S_ .f32 := constant S_ .f32 0x7F800000#32
  let main_v1 : FVec F S4x256x4096 .f32 := broadcastInDim S4x256x4096 ![] bcast_S_S4x256x4096 main_cst
  let main_v2 : IVec S4x256x4096 1 := cmpf .olt main_v0 main_v1
  let main_c : IVec S_ 1 := constantI S_ 1 1#1
  let main_v3 : IVec S_ 1 := (fun x v => Host.reduce IntOp.andi x v reducesTo_S4x256x4096_S_d0_1_2 h_S_) main_v2 main_c
  let main_v4 : FVec F S4096x32x1 .f32 := Host.absf main_arg2
  let main_cst_0 : FVec F S_ .f32 := constant S_ .f32 0x7F800000#32
  let main_v5 : FVec F S4096x32x1 .f32 := broadcastInDim S4096x32x1 ![] bcast_S_S4096x32x1 main_cst_0
  let main_v6 : IVec S4096x32x1 1 := cmpf .olt main_v4 main_v5
  let main_c_1 : IVec S_ 1 := constantI S_ 1 1#1
  let main_v7 : IVec S_ 1 := (fun x v => Host.reduce IntOp.andi x v reducesTo_S4096x32x1_S_d0_1_2 h_S_) main_v6 main_c_1
  let main_v8 : IVec S_ 1 := andi main_v3 main_v7
  let main_v9 : FVec F S4096x32x1 .f32 := Host.absf main_arg3
  let main_cst_2 : FVec F S_ .f32 := constant S_ .f32 0x7F800000#32
  let main_v10 : FVec F S4096x32x1 .f32 := broadcastInDim S4096x32x1 ![] bcast_S_S4096x32x1 main_cst_2
  let main_v11 : IVec S4096x32x1 1 := cmpf .olt main_v9 main_v10
  let main_c_3 : IVec S_ 1 := constantI S_ 1 1#1
  let main_v12 : IVec S_ 1 := (fun x v => Host.reduce IntOp.andi x v reducesTo_S4096x32x1_S_d0_1_2 h_S_) main_v11 main_c_3
  let main_v13 : IVec S_ 1 := andi main_v8 main_v12
  let main_v14 : FVec F S4096 .f32 := Host.absf main_arg4
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg5 main_arg6 main_v13 main_v16
-- ==== Kernel.lean ====
abbrev S4x256x4096 : Shape := ⟨3, ![4, 256, 4096]⟩
abbrev S4096x4096 : Shape := ⟨2, ![4096, 4096]⟩
abbrev S4096x32x1 : Shape := ⟨3, ![4096, 32, 1]⟩
abbrev S4096 : Shape := ⟨1, ![4096]⟩
abbrev S1024x4096 : Shape := ⟨2, ![1024, 4096]⟩
abbrev S1024x1024 : Shape := ⟨2, ![1024, 1024]⟩
abbrev S512x1024 : Shape := ⟨2, ![512, 1024]⟩
abbrev S512x8x1 : Shape := ⟨3, ![512, 8, 1]⟩
abbrev S1024 : Shape := ⟨1, ![1024]⟩
abbrev S512 : Shape := ⟨1, ![512]⟩
abbrev S1024x512 : Shape := ⟨2, ![1024, 512]⟩
abbrev S512x1 : Shape := ⟨2, ![512, 1]⟩
abbrev S512x128 : Shape := ⟨2, ![512, 128]⟩
abbrev S512x1x1 : Shape := ⟨3, ![512, 1, 1]⟩
abbrev S128 : Shape := ⟨1, ![128]⟩
abbrev S1x128 : Shape := ⟨2, ![1, 128]⟩
abbrev S1024x128 : Shape := ⟨2, ![1024, 128]⟩
abbrev S1x512 : Shape := ⟨2, ![1, 512]⟩

abbrev nBuf : Space → Nat
  | .hbm => 10
  | .vmem => 17
  | .smem => 0
  | _ => 0

abbrev bufTy : (tb : Table) → Fin (tcTables nBuf tb) → BufTy
  | .hbm, ⟨0, _⟩ => ⟨S4x256x4096, .f32⟩
  | .hbm, ⟨1, _⟩ => ⟨S4096x4096, .i32⟩
  | .hbm, ⟨2, _⟩ => ⟨S4096x32x1, .f32⟩
  | .hbm, ⟨3, _⟩ => ⟨S4096x32x1, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S1024x4096, .f32⟩
  | .hbm, ⟨8, _⟩ => ⟨S1024x4096, .f32⟩
  | .hbm, ⟨9, _⟩ => ⟨S4x256x4096, .f32⟩
  | .local _ .vmem, ⟨0, _⟩ => ⟨S1024x1024, .f32⟩
  | .local _ .vmem, ⟨1, _⟩ => ⟨S1024x1024, .f32⟩
  | .local _ .vmem, ⟨2, _⟩ => ⟨S512x1024, .i32⟩
  | .local _ .vmem, ⟨3, _⟩ => ⟨S512x1024, .i32⟩
  | .local _ .vmem, ⟨4, _⟩ => ⟨S512x8x1, .f32⟩
  | .local _ .vmem, ⟨5, _⟩ => ⟨S512x8x1, .f32⟩
  | .local _ .vmem, ⟨6, _⟩ => ⟨S512x8x1, .f32⟩
  | .local _ .vmem, ⟨7, _⟩ => ⟨S512x8x1, .f32⟩
  | .local _ .vmem, ⟨8, _⟩ => ⟨S1024, .f32⟩
  | .local _ .vmem, ⟨9, _⟩ => ⟨S1024, .f32⟩
  | .local _ .vmem, ⟨10, _⟩ => ⟨S512, .f32⟩
  | .local _ .vmem, ⟨11, _⟩ => ⟨S512, .f32⟩
  | .local _ .vmem, ⟨12, _⟩ => ⟨S512, .f32⟩
  | .local _ .vmem, ⟨13, _⟩ => ⟨S512, .f32⟩
  | .local _ .vmem, ⟨14, _⟩ => ⟨S1024x512, .f32⟩
  | .local _ .vmem, ⟨15, _⟩ => ⟨S1024x512, .f32⟩
  | .local _ .vmem, ⟨16, _⟩ => ⟨S1024x512, .f32⟩
  | _, _ => ⟨S4x256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![1, 8, 4], ![false, false, false]⟩

def k0_cond2 (i : grid0.Coords) : BitVec 1 :=
  let arg2 : BitVec 32 := BitVec.ofNat 32 (i 2).val
  let c3_i32 : BitVec 32 := 3#32
  let v188 : BitVec 1 := Scalar.cmpi .eq arg2 c3_i32
  let v189 : BitVec 32 := Scalar.extui v188
  let c0_i32_44 : BitVec 32 := 0#32
  let v190 : BitVec 1 := Scalar.cmpi .ne v189 c0_i32_44
  v190

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_4 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat]

def cc0_transform_5 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_6 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x8x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S512x8x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

class Facts₀ : Prop where
  shapeCasts_S4x256x4096_S1024x4096 : S4x256x4096.ShapeCasts S1024x4096
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x8x1_S512x8x1_0_0_0 : ∀ a, (![0, 0, 0] : Fin 3 → Nat) a + S512x8x1.size a ≤ S512x8x1.size a
  h_S512x8x1 : 0 < S512x8x1.numel
  inb_S1024_S1024_0 : ∀ a, (![0] : Fin 1 → Nat) a + S1024.size a ≤ S1024.size a
  h_S1024 : 0 < S1024.numel
  inb_S512_S512_0 : ∀ a, (![0] : Fin 1 → Nat) a + S512.size a ≤ S512.size a
  h_S512 : 0 < S512.numel
  shapeCasts_S512_S512x1 : S512.ShapeCasts S512x1
  inb_S512x1024_S512x128_0_0 : ∀ a, (![0, 0] : Fin 2 → Nat) a + S512x128.size a ≤ S512x1024.size a
  h_S512x128 : 0 < S512x128.numel
  slices_S512x8x1_o0_0_0_S512x1x1 : S512x8x1.Slices ![0, 0, 0] S512x1x1
  shapeCasts_S512x1x1_S512x1 : S512x1x1.ShapeCasts S512x1
  broadcasts_S512x1_S512x128 : S512x1.Broadcasts S512x128
  slices_S1024_o0_S128 : S1024.Slices ![0] S128
  shapeCasts_S128_S1x128 : S128.ShapeCasts S1x128
  broadcasts_S1x128_S512x128 : S1x128.Broadcasts S512x128
  bitsLt_bf16_f32 : FTy.bits .bf16 < FTy.bits .f32
  inb_S1024x1024_S1024x128_0_0 : ∀ a, (![0, 0] : Fin 2 → Nat) a + S1024x128.size a ≤ S1024x1024.size a
  h_S1024x128 : 0 < S1024x128.numel
  shapeCasts_S1024x128_S1024x128 : S1024x128.ShapeCasts S1024x128
  inb_S512x1024_S512x128_0_128 : ∀ a, (![0, 128] : Fin 2 → Nat) a + S512x128.size a ≤ S512x1024.size a
  slices_S512x8x1_o0_1_0_S512x1x1 : S512x8x1.Slices ![0, 1, 0] S512x1x1
  slices_S1024_o128_S128 : S1024.Slices ![128] S128
  inb_S1024x1024_S1024x128_0_128 : ∀ a, (![0, 128] : Fin 2 → Nat) a + S1024x128.size a ≤ S1024x1024.size a
  inb_S512x1024_S512x128_0_256 : ∀ a, (![0, 256] : Fin 2 → Nat) a + S512x128.size a ≤ S512x1024.size a
  slices_S512x8x1_o0_2_0_S512x1x1 : S512x8x1.Slices ![0, 2, 0] S512x1x1
  slices_S1024_o256_S128 : S1024.Slices ![256] S128
  inb_S1024x1024_S1024x128_0_256 : ∀ a, (![0, 256] : Fin 2 → Nat) a + S1024x128.size a ≤ S1024x1024.size a
  inb_S512x1024_S512x128_0_384 : ∀ a, (![0, 384] : Fin 2 → Nat) a + S512x128.size a ≤ S512x1024.size a
  slices_S512x8x1_o0_3_0_S512x1x1 : S512x8x1.Slices ![0, 3, 0] S512x1x1
  slices_S1024_o384_S128 : S1024.Slices ![384] S128
  inb_S1024x1024_S1024x128_0_384 : ∀ a, (![0, 384] : Fin 2 → Nat) a + S1024x128.size a ≤ S1024x1024.size a
  inb_S512x1024_S512x128_0_512 : ∀ a, (![0, 512] : Fin 2 → Nat) a + S512x128.size a ≤ S512x1024.size a
  slices_S512x8x1_o0_4_0_S512x1x1 : S512x8x1.Slices ![0, 4, 0] S512x1x1
  slices_S1024_o512_S128 : S1024.Slices ![512] S128
  inb_S1024x1024_S1024x128_0_512 : ∀ a, (![0, 512] : Fin 2 → Nat) a + S1024x128.size a ≤ S1024x1024.size a
  inb_S512x1024_S512x128_0_640 : ∀ a, (![0, 640] : Fin 2 → Nat) a + S512x128.size a ≤ S512x1024.size a
  slices_S512x8x1_o0_5_0_S512x1x1 : S512x8x1.Slices ![0, 5, 0] S512x1x1
  slices_S1024_o640_S128 : S1024.Slices ![640] S128
  inb_S1024x1024_S1024x128_0_640 : ∀ a, (![0, 640] : Fin 2 → Nat) a + S1024x128.size a ≤ S1024x1024.size a
  inb_S512x1024_S512x128_0_768 : ∀ a, (![0, 768] : Fin 2 → Nat) a + S512x128.size a ≤ S512x1024.size a
  slices_S512x8x1_o0_6_0_S512x1x1 : S512x8x1.Slices ![0, 6, 0] S512x1x1
  slices_S1024_o768_S128 : S1024.Slices ![768] S128
  inb_S1024x1024_S1024x128_0_768 : ∀ a, (![0, 768] : Fin 2 → Nat) a + S1024x128.size a ≤ S1024x1024.size a
  inb_S512x1024_S512x128_0_896 : ∀ a, (![0, 896] : Fin 2 → Nat) a + S512x128.size a ≤ S512x1024.size a
  slices_S512x8x1_o0_7_0_S512x1x1 : S512x8x1.Slices ![0, 7, 0] S512x1x1
  slices_S1024_o896_S128 : S1024.Slices ![896] S128
  inb_S1024x1024_S1024x128_0_896 : ∀ a, (![0, 896] : Fin 2 → Nat) a + S1024x128.size a ≤ S1024x1024.size a
  shapeCasts_S512_S1x512 : S512.ShapeCasts S1x512
  broadcasts_S1x512_S1024x512 : S1x512.Broadcasts S1024x512
  shapeCasts_S1024x4096_S4x256x4096 : S1024x4096.ShapeCasts S4x256x4096
  dot_S1024x128_S512x128_S1024x512_1_1_0_0_n_n_wf : DotDims.WF S1024x128 S512x128 S1024x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S1024x4096.size a
  hwx0_0 : ∀ i : grid0.Coords, EltTy.bits .f32 = 32 ∨ (Rect.block (s := S1024x4096) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .i32 = 32 ∨ (Rect.block (s := S4096x4096) S512x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x8x1.size a ≤ S4096x32x1.size a
  hwx0_2 : ∀ i : grid0.Coords, EltTy.bits .f32 = 32 ∨ (Rect.block (s := S4096x32x1) S512x8x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x8x1.size a ≤ S4096x32x1.size a
  hwx0_3 : ∀ i : grid0.Coords, EltTy.bits .f32 = 32 ∨ (Rect.block (s := S4096x32x1) S512x8x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S4096.size a
  hwx0_4 : ∀ i : grid0.Coords, EltTy.bits .f32 = 32 ∨ (Rect.block (s := S4096) S1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S4096.size a
  hwx0_5 : ∀ i : grid0.Coords, EltTy.bits .f32 = 32 ∨ (Rect.block (s := S4096) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S4096.size a
  hwx0_6 : ∀ i : grid0.Coords, EltTy.bits .f32 = 32 ∨ (Rect.block (s := S4096) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x512.size a ≤ S1024x4096.size a
  hwx0_7 : ∀ i : grid0.Coords, EltTy.bits .f32 = 32 ∨ (Rect.block (s := S1024x4096) S1024x512.size (cc0_transform_7 i) (hinb0_7 i)).WholeWords (EltTy.packing .f32)

variable [Facts₀]

def dot_S1024x128_S512x128_S1024x512_1_1_0_0_n_n : DotDims S1024x128 S512x128 S1024x512 where
  lhsContracting := [1]
  rhsContracting := [1]
  lhsNonContracting := [0]
  rhsNonContracting := [0]
  lhsBatch := []
  rhsBatch := []
  wf := dot_S1024x128_S512x128_S1024x512_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x8x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x8x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v1) S1024x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun _ => false | 7 => fun i => !(k0_cond2 i == 1#1) | ⟨_ + 8, h⟩ => absurd h (Nat.not_lt.2 (Nat.le_add_left _ _))

class Facts : Prop extends Facts₀ where

variable [Facts]
-- ==== ReferenceIdeal.lean ====
abbrev S4x256x4096 : Shape := ⟨3, ![4, 256, 4096]⟩
abbrev S4096x4096 : Shape := ⟨2, ![4096, 4096]⟩
abbrev S4096x32x1 : Shape := ⟨3, ![4096, 32, 1]⟩
abbrev S4096 : Shape := ⟨1, ![4096]⟩
abbrev S4096x32x128 : Shape := ⟨3, ![4096, 32, 128]⟩
abbrev S4096x1 : Shape := ⟨2, ![4096, 1]⟩
abbrev S1x4096 : Shape := ⟨2, ![1, 4096]⟩
abbrev S1x1x4096 : Shape := ⟨3, ![1, 1, 4096]⟩

abbrev nBuf : Space → Nat
  | .hbm => 24
  | .vmem => 0
  | .smem => 0
  | _ => 0

abbrev bufTy : (tb : Table) → Fin (tcTables nBuf tb) → BufTy
  | .hbm, ⟨0, _⟩ => ⟨S4x256x4096, .f32⟩
  | .hbm, ⟨1, _⟩ => ⟨S4096x4096, .i32⟩
  | .hbm, ⟨2, _⟩ => ⟨S4096x32x1, .f32⟩
  | .hbm, ⟨3, _⟩ => ⟨S4096x32x1, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S4096x4096, .f32⟩
  | .hbm, ⟨8, _⟩ => ⟨S4096x32x128, .f32⟩
  | .hbm, ⟨9, _⟩ => ⟨S4096x32x128, .f32⟩
  | .hbm, ⟨10, _⟩ => ⟨S4096x32x128, .f32⟩
  | .hbm, ⟨11, _⟩ => ⟨S4096x32x128, .f32⟩
  | .hbm, ⟨12, _⟩ => ⟨S4096x32x128, .f32⟩
  | .hbm, ⟨13, _⟩ => ⟨S4096x4096, .f32⟩
  | .hbm, ⟨14, _⟩ => ⟨S4096x1, .f32⟩
  | .hbm, ⟨15, _⟩ => ⟨S4096x4096, .f32⟩
  | .hbm, ⟨16, _⟩ => ⟨S4096x4096, .f32⟩
  | .hbm, ⟨17, _⟩ => ⟨S1x4096, .f32⟩
  | .hbm, ⟨18, _⟩ => ⟨S4096x4096, .f32⟩
  | .hbm, ⟨19, _⟩ => ⟨S4096x4096, .f32⟩
  | .hbm, ⟨20, _⟩ => ⟨S4x256x4096, .f32⟩
  | .hbm, ⟨21, _⟩ => ⟨S1x1x4096, .f32⟩
  | .hbm, ⟨22, _⟩ => ⟨S4x256x4096, .f32⟩
  | .hbm, ⟨23, _⟩ => ⟨S4x256x4096, .f32⟩
  | _, _ => ⟨S4x256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  shapeCasts_S4096x4096_S4096x32x128 : S4096x4096.ShapeCasts S4096x32x128
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S1x1x4096_2 : S4096.BroadcastsInDim S1x1x4096 (![2] : Fin 1 → Fin S1x1x4096.rank)
  bcast_S1x1x4096_S4x256x4096_0_1_2 : S1x1x4096.BroadcastsInDim S4x256x4096 (![0, 1, 2] : Fin 3 → Fin S4x256x4096.rank)
  dot_S4x256x4096_S4096x4096_S4x256x4096_2_1_01_0_n_n_wf : DotDims.WF S4x256x4096 S4096x4096 S4x256x4096 [2] [1] [0, 1] [0] [] []

variable [Facts₀]

def dot_S4x256x4096_S4096x4096_S4x256x4096_2_1_01_0_n_n : DotDims S4x256x4096 S4096x4096 S4x256x4096 where
  lhsContracting := [2]
  rhsContracting := [1]
  lhsNonContracting := [0, 1]
  rhsNonContracting := [0]
  lhsBatch := []
  rhsBatch := []
  wf := dot_S4x256x4096_S4096x4096_S4x256x4096_2_1_01_0_n_n_wf

class Facts : Prop extends Facts₀ where

variable [Facts]
-- ==== Proof.Body.lean ====
/-
  The kernel body's arithmetic in one vocabulary. At a grid point the body holds an [1024, 1024] tile of x, a
  [512, 1024] tile of the integer weights, the [512, 8, 1] scales and zero points of the tile's 8 groups, the 1024
  column factors, the 512 row factors and a [1024, 512] accumulator. For each group g = 0 … 7 it forms the
  dequantised [512, 128] weights of the group,

      w_g(r, c) = (((q(r, 128 g + c) - zero(r, g)) * scale(r, g)) * mu2(r)) * mu1(128 g + c),

  multiplies the group's 128 columns of x by their transpose and adds the product onto the accumulator. The body's
  text names its intermediate values in stretches that do not follow the groups (one stretch may end one group and
  begin the next); below, each stretch is restated through four small functions (a column of group parameters, the
  weights before and after the column factor, one product), so that everything after this module speaks of groups
  only.
-/
import proofs.«165393_j64330020159905_1_alg».proof.Proof.Gen.KernelIdeal.Skeleton

noncomputable section

namespace Cert.KernelIdeal.Body

open Idealize.ShloMosaic Cert.KernelIdeal Cert.KernelIdeal.Gen

variable {F : FTy → Type} [FloatOps F]

/-- The column of one group's parameters (zero points or scales): entry (r, g, 0) of the [512, 8, 1] array, as [512, 1]. -/
def gcol (off : Fin 3 → Nat) (h : S512x8x1.Slices off S512x1x1) (v : Vec F S512x8x1 .f32) : FVec F S512x1 .f32 :=
  shapeCast S512x1 (extractStridedSlice S512x1x1 off v h) shapeCasts_S512x1x1_S512x1

/-- The weights of a group before the column factor: ((q - zero) * scale) * mu2, the three columns broadcast over the lanes. -/
def wrow (qf : FVec F S512x128 .f32) (zc sc m2 : FVec F S512x1 .f32) : FVec F S512x128 .f32 :=
  mulf (mulf (subf qf (broadcastTo S512x128 zc broadcasts_S512x1_S512x128)) (broadcastTo S512x128 sc broadcasts_S512x1_S512x128))
    (broadcastTo S512x128 m2 broadcasts_S512x1_S512x128)

/-- The weights of a group: the above times the group's 128 column factors, broadcast over the rows. -/
def wfull (wr : FVec F S512x128 .f32) (off : Fin 1 → Nat) (h : S1024.Slices off S128) (v5 : Vec F S1024 .f32) : FVec F S512x128 .f32 :=
  mulf wr (broadcastTo S512x128 (shapeCast S1x128 (extractStridedSlice S128 off v5 h) shapeCasts_S128_S1x128) broadcasts_S1x128_S512x128)

/-- One group's product: the group's columns of x times the transposed weights, into a zero accumulator. -/
def prod (wb : FVec F S512x128 .bf16) (xs : Vec F S1024x128 .f32) : FVec F S1024x512 .f32 :=
  matmul dot_S1024x128_S512x128_S1024x512_1_1_0_0_n_n none
    (truncf .bf16 (shapeCast S1024x128 xs shapeCasts_S1024x128_S1024x128) bitsLt_bf16_f32) wb (constant S1024x512 .f32 0x00000000#32)

/-- The weights handed to the matrix unit. -/
def wb (w : FVec F S512x128 .f32) : FVec F S512x128 .bf16 := truncf .bf16 w bitsLt_bf16_f32

/-- The row factors as a column. -/
def m2col (v6 : Vec F S512 .f32) : FVec F S512x1 .f32 := shapeCast S512x1 v6 shapeCasts_S512_S512x1

/-- Group g's contribution from the body's loads: x's columns xs, the integer weights qs, the parameters. -/
def term (off3 : Fin 3 → Nat) (h3 : S512x8x1.Slices off3 S512x1x1) (off1 : Fin 1 → Nat) (h1 : S1024.Slices off1 S128)
    (sc zr : Vec F S512x8x1 .f32) (m1 : Vec F S1024 .f32) (m2 : Vec F S512 .f32) (qs : Vec F S512x128 .i32) (xs : Vec F S1024x128 .f32) :
    FVec F S1024x512 .f32 :=
  prod (wb (wfull (wrow (sitofp .f32 qs) (gcol off3 h3 zr) (gcol off3 h3 sc) (m2col m2)) off1 h1 m1)) xs

theorem pay4_eq (v6 : Vec F S512 .f32) : k0_pay4 v6 = m2col v6 := rfl

theorem pay5_eq (v3 v4 : Vec F S512x8x1 .f32) (v5 : Vec F S1024 .f32) (v6 : Vec F S512 .f32) (v8 : Vec F S1024x512 .f32)
    (v9 : Vec F S512x128 .i32) (v26 : Vec F S1024x128 .f32) :
    k0_pay5 v3 v4 v5 v6 v8 v9 v26
      = addf v8 (term ![0, 0, 0] slices_S512x8x1_o0_0_0_S512x1x1 ![0] slices_S1024_o0_S128 v3 v4 v5 v6 v9 v26) := rfl

theorem pay9_eq (v3 v4 : Vec F S512x8x1 .f32) (v5 : Vec F S1024 .f32) (v6 : Vec F S512 .f32) (v30 : FVec F S1024x512 .f32)
    (v31 : Vec F S512x128 .i32) (v48 : Vec F S1024x128 .f32) (v53 : Vec F S512x128 .i32) (v70 : Vec F S1024x128 .f32) :
    k0_pay9 v3 v4 v5 (k0_pay4 v6) v30 (k0_pay6 v31) (k0_pay7 v4) (k0_pay8 v3) v48 v53 v70
      = addf (addf v30 (term ![0, 1, 0] slices_S512x8x1_o0_1_0_S512x1x1 ![128] slices_S1024_o128_S128 v3 v4 v5 v6 v31 v48))
          (term ![0, 2, 0] slices_S512x8x1_o0_2_0_S512x1x1 ![256] slices_S1024_o256_S128 v3 v4 v5 v6 v53 v70) := rfl

theorem pay11_eq (v3 v4 : Vec F S512x8x1 .f32) (v5 : Vec F S1024 .f32) (v6 : Vec F S512 .f32) (v74 : FVec F S1024x512 .f32)
    (v75 : Vec F S512x128 .i32) (v92 : Vec F S1024x128 .f32) (v97 : Vec F S512x128 .i32) (v114 : Vec F S1024x128 .f32) :
    k0_pay11 v3 v4 v5 (k0_pay4 v6) v74 (k0_pay10 v3 v4 (k0_pay4 v6) v75) v92 v97 v114
      = addf (addf v74 (term ![0, 3, 0] slices_S512x8x1_o0_3_0_S512x1x1 ![384] slices_S1024_o384_S128 v3 v4 v5 v6 v75 v92))
          (term ![0, 4, 0] slices_S512x8x1_o0_4_0_S512x1x1 ![512] slices_S1024_o512_S128 v3 v4 v5 v6 v97 v114) := rfl

theorem pay13_eq (v3 v4 : Vec F S512x8x1 .f32) (v5 : Vec F S1024 .f32) (v6 : Vec F S512 .f32) (v118 : FVec F S1024x512 .f32)
    (v119 : Vec F S512x128 .i32) (v136 : Vec F S1024x128 .f32) (v141 : Vec F S512x128 .i32) (v158 : Vec F S1024x128 .f32) :
    k0_pay13 v3 v4 v5 (k0_pay4 v6) v118 (k0_pay12 v3 v4 v5 (k0_pay4 v6) v119) v136 v141 v158
      = addf (addf v118 (term ![0, 5, 0] slices_S512x8x1_o0_5_0_S512x1x1 ![640] slices_S1024_o640_S128 v3 v4 v5 v6 v119 v136))
          (term ![0, 6, 0] slices_S512x8x1_o0_6_0_S512x1x1 ![768] slices_S1024_o768_S128 v3 v4 v5 v6 v141 v158) := rfl

theorem pay14_eq (v3 v4 : Vec F S512x8x1 .f32) (v5 : Vec F S1024 .f32) (v6 : Vec F S512 .f32)
    (v163 : Vec F S512x128 .i32) (v180 : Vec F S1024x128 .f32) :
    k0_pay14 v3 v4 v5 (k0_pay4 v6) v163 v180
      = term ![0, 7, 0] slices_S512x8x1_o0_7_0_S512x1x1 ![896] slices_S1024_o896_S128 v3 v4 v5 v6 v163 v180 := rfl

theorem pay1_eq (v162 v183 : FVec F S1024x512 .f32) :
    k0_pay1 v162 v183 = shapeCast S1024x512 (addf v162 v183) shapeCasts_S1024x512_S1024x512 := rfl

end Cert.KernelIdeal.Body

end
-- ==== Proof.Pieces.lean ====
/-
  What the body leaves behind at a grid point, as values. The accumulator (a scratch buffer kept from one grid point
  to the next) ends a point holding what it held before plus the tile's eight group products, added one after the
  other; at the first tile of an output block it is zeroed first, and at the last tile the output block is written
  as the accumulator plus the bias row.
-/
import proofs.«165393_j64330020159905_1_alg».proof.Proof.Gen.KernelIdeal.Frame
import proofs.«165393_j64330020159905_1_alg».proof.Proof.Body
import Idealize.ShloMosaic.Lib.Pipeline.Value
import Idealize.ShloMosaic.Lib.Tactic

set_option maxRecDepth 16384

noncomputable section

namespace Cert.KernelIdeal.Pieces

open Idealize.ShloMosaic Idealize.ShloMosaic.TcCoe Idealize.SL.Sem
open Cert.KernelIdeal Cert.KernelIdeal.Gen Cert.KernelIdeal.Body

variable {F : FTy → Type} [FloatOps F]

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator a with the tile's eight group products added one after the other. -/
def acc8 (x0 : Vec F S1024x1024 .f32) (x1 : Vec F S512x1024 .i32) (sc zr : Vec F S512x8x1 .f32) (m1 : Vec F S1024 .f32)
    (m2 : Vec F S512 .f32) (a : Vec F S1024x512 .f32) : FVec F S1024x512 .f32 :=
  addf (addf (addf (addf (addf (addf (addf (addf a
    (term ![0, 0, 0] slices_S512x8x1_o0_0_0_S512x1x1 ![0] slices_S1024_o0_S128 sc zr m1 m2
      (View.ld x1 (Rect.unit (s := S512x1024) ![0, 0] S512x128.size inb_S512x1024_S512x128_0_0))
      (View.ld x0 (Rect.unit (s := S1024x1024) ![0, 0] S1024x128.size inb_S1024x1024_S1024x128_0_0))))
    (term ![0, 1, 0] slices_S512x8x1_o0_1_0_S512x1x1 ![128] slices_S1024_o128_S128 sc zr m1 m2
      (View.ld x1 (Rect.unit (s := S512x1024) ![0, 128] S512x128.size inb_S512x1024_S512x128_0_128))
      (View.ld x0 (Rect.unit (s := S1024x1024) ![0, 128] S1024x128.size inb_S1024x1024_S1024x128_0_128))))
    (term ![0, 2, 0] slices_S512x8x1_o0_2_0_S512x1x1 ![256] slices_S1024_o256_S128 sc zr m1 m2
      (View.ld x1 (Rect.unit (s := S512x1024) ![0, 256] S512x128.size inb_S512x1024_S512x128_0_256))
      (View.ld x0 (Rect.unit (s := S1024x1024) ![0, 256] S1024x128.size inb_S1024x1024_S1024x128_0_256))))
    (term ![0, 3, 0] slices_S512x8x1_o0_3_0_S512x1x1 ![384] slices_S1024_o384_S128 sc zr m1 m2
      (View.ld x1 (Rect.unit (s := S512x1024) ![0, 384] S512x128.size inb_S512x1024_S512x128_0_384))
      (View.ld x0 (Rect.unit (s := S1024x1024) ![0, 384] S1024x128.size inb_S1024x1024_S1024x128_0_384))))
    (term ![0, 4, 0] slices_S512x8x1_o0_4_0_S512x1x1 ![512] slices_S1024_o512_S128 sc zr m1 m2
      (View.ld x1 (Rect.unit (s := S512x1024) ![0, 512] S512x128.size inb_S512x1024_S512x128_0_512))
      (View.ld x0 (Rect.unit (s := S1024x1024) ![0, 512] S1024x128.size inb_S1024x1024_S1024x128_0_512))))
    (term ![0, 5, 0] slices_S512x8x1_o0_5_0_S512x1x1 ![640] slices_S1024_o640_S128 sc zr m1 m2
      (View.ld x1 (Rect.unit (s := S512x1024) ![0, 640] S512x128.size inb_S512x1024_S512x128_0_640))
      (View.ld x0 (Rect.unit (s := S1024x1024) ![0, 640] S1024x128.size inb_S1024x1024_S1024x128_0_640))))
    (term ![0, 6, 0] slices_S512x8x1_o0_6_0_S512x1x1 ![768] slices_S1024_o768_S128 sc zr m1 m2
      (View.ld x1 (Rect.unit (s := S512x1024) ![0, 768] S512x128.size inb_S512x1024_S512x128_0_768))
      (View.ld x0 (Rect.unit (s := S1024x1024) ![0, 768] S1024x128.size inb_S1024x1024_S1024x128_0_768))))
    (term ![0, 7, 0] slices_S512x8x1_o0_7_0_S512x1x1 ![896] slices_S1024_o896_S128 sc zr m1 m2
      (View.ld x1 (Rect.unit (s := S512x1024) ![0, 896] S512x128.size inb_S512x1024_S512x128_0_896))
      (View.ld x0 (Rect.unit (s := S1024x1024) ![0, 896] S1024x128.size inb_S1024x1024_S1024x128_0_896)))

/-- What the accumulator holds after a point that found it holding a. -/
def newAcc (x0 : Vec F S1024x1024 .f32) (x1 : Vec F S512x1024 .i32) (sc zr : Vec F S512x8x1 .f32) (m1 : Vec F S1024 .f32)
    (m2 : Vec F S512 .f32) (a : Vec F S1024x512 .f32) : Vec F S1024x512 .f32 :=
  shapeCast S1024x512 (acc8 x0 x1 sc zr m1 m2 a) shapeCasts_S1024x512_S1024x512

/-- The zeroed accumulator. -/
def zeroAcc : Vec F S1024x512 .f32 := k0_pay3

/-- The output block: the accumulator plus the bias row over every row. -/
def withBias (a : Vec F S1024x512 .f32) (b : Vec F S512 .f32) : Vec F S1024x512 .f32 := k0_pay2 a b

/-- A point that is neither the first nor the last tile of its output block. -/
theorem scratch_B (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x8x1 .f32) (harg5 : arg5.IsWhole) (arg6 : Memref sig .tc .vmem S512x8x1 .f32) (harg6 : arg6.IsWhole) (arg7 : Memref sig .tc .vmem S1024 .f32) (harg7 : arg7.IsWhole) (arg8 : Memref sig .tc .vmem S512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole) (hc0 : ¬cond0_0 i) (hc1 : ¬cond0_1 i) (x0 : Vec F S1024x1024 .f32) (x1 : Vec F S512x1024 .i32) (x2 : Vec F S512x8x1 .f32) (x3 : Vec F S512x8x1 .f32) (x4 : Vec F S1024 .f32) (x5 : Vec F S512 .f32) (x6 : Vec F S512 .f32) (xs0 : Vec F S1024x512 .f32) :
    sout0_B_0 c i arg3 harg3 arg4 harg4 arg5 harg5 arg6 harg6 arg7 harg7 arg8 harg8 arg9 harg9 arg10 harg10 arg11 harg11 hc0 hc1 x0 x1 x2 x3 x4 x5 x6 xs0 = newAcc x0 x1 x2 x3 x4 x5 xs0 := by
  unfold sout0_B_0
  rw [View.read_writes_eq_canon _ _ _ (scover0_B_0 c i arg3 harg3 arg4 harg4 arg5 harg5 arg6 harg6 arg7 harg7 arg8 harg8 arg9 harg9 arg10 harg10 arg11 harg11 hc0 hc1 x0 x1 x2 x3 x4 x5 x6 xs0)]
  unfold kernelRun0_B
  dsimp only
  sl_unfold_words
  rw [View.canon_unit_zero hz2]
  simp only [View.readAt_eq_ld, harg3.read_unread, harg4.read_unread, harg5.read_unread, harg6.read_unread, harg7.read_unread, harg8.read_unread, harg9.read_unread, harg11.read_unread, View.ld_unit_zero (S := S512x8x1) hz3, View.ld_unit_zero (S := S1024) hz1, View.ld_unit_zero (S := S512) hz1, View.ld_unit_zero (S := S1024x512) hz2]
  rfl

/-- The last tile of an output block: the accumulator … -/
theorem scratch_C (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x8x1 .f32) (harg5 : arg5.IsWhole) (arg6 : Memref sig .tc .vmem S512x8x1 .f32) (harg6 : arg6.IsWhole) (arg7 : Memref sig .tc .vmem S1024 .f32) (harg7 : arg7.IsWhole) (arg8 : Memref sig .tc .vmem S512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole) (hc0 : ¬cond0_0 i) (hc1 : cond0_1 i) (x0 : Vec F S1024x1024 .f32) (x1 : Vec F S512x1024 .i32) (x2 : Vec F S512x8x1 .f32) (x3 : Vec F S512x8x1 .f32) (x4 : Vec F S1024 .f32) (x5 : Vec F S512 .f32) (x6 : Vec F S512 .f32) (xs0 : Vec F S1024x512 .f32) :
    sout0_C_0 c i arg3 harg3 arg4 harg4 arg5 harg5 arg6 harg6 arg7 harg7 arg8 harg8 arg9 harg9 arg10 harg10 arg11 harg11 hc0 hc1 x0 x1 x2 x3 x4 x5 x6 xs0 = newAcc x0 x1 x2 x3 x4 x5 xs0 := by
  unfold sout0_C_0
  rw [View.read_writes_eq_canon _ _ _ (scover0_C_0 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz2]
  simp only [View.readAt_eq_ld, harg3.read_unread, harg4.read_unread, harg5.read_unread, harg6.read_unread, harg7.read_unread, harg8.read_unread, harg9.read_unread, harg11.read_unread, View.ld_unit_zero (S := S512x8x1) hz3, View.ld_unit_zero (S := S1024) hz1, View.ld_unit_zero (S := S512) hz1, View.ld_unit_zero (S := S1024x512) hz2]
  rfl

/-- … and the output block, the new accumulator plus the bias. -/
theorem out_C (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x8x1 .f32) (harg5 : arg5.IsWhole) (arg6 : Memref sig .tc .vmem S512x8x1 .f32) (harg6 : arg6.IsWhole) (arg7 : Memref sig .tc .vmem S1024 .f32) (harg7 : arg7.IsWhole) (arg8 : Memref sig .tc .vmem S512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole) (hc0 : ¬cond0_0 i) (hc1 : cond0_1 i) (x0 : Vec F S1024x1024 .f32) (x1 : Vec F S512x1024 .i32) (x2 : Vec F S512x8x1 .f32) (x3 : Vec F S512x8x1 .f32) (x4 : Vec F S1024 .f32) (x5 : Vec F S512 .f32) (x6 : Vec F S512 .f32) (xs0 : Vec F S1024x512 .f32) :
    out0_C_7 c i arg3 harg3 arg4 harg4 arg5 harg5 arg6 harg6 arg7 harg7 arg8 harg8 arg9 harg9 arg10 harg10 arg11 harg11 hc0 hc1 x0 x1 x2 x3 x4 x5 x6 xs0 = withBias (newAcc x0 x1 x2 x3 x4 x5 xs0) x6 := by
  unfold out0_C_7
  rw [View.read_writes_eq_canon _ _ _ (cover0_C_7 c i arg3 harg3 arg4 harg4 arg5 harg5 arg6 harg6 arg7 harg7 arg8 harg8 arg9 harg9 arg10 harg10 arg11 harg11 hc0 hc1 x0 x1 x2 x3 x4 x5 x6 xs0)]
  unfold kernelRun0_C
  dsimp only
  sl_unfold_words
  rw [View.canon_unit_zero hz2, View.readCov_unit_zero (S := S1024x512) _ hz2]
  simp only [View.readAt_eq_ld, harg3.read_unread, harg4.read_unread, harg5.read_unread, harg6.read_unread, harg7.read_unread, harg8.read_unread, harg9.read_unread, harg11.read_unread, View.ld_unit_zero (S := S512x8x1) hz3, View.ld_unit_zero (S := S1024) hz1, View.ld_unit_zero (S := S512) hz1, View.ld_unit_zero (S := S1024x512) hz2]
  rfl

/-- The first tile of an output block: the accumulator is zeroed, then the tile is added. -/
theorem scratch_A (c : Dev nD) (i : grid0.Coords) (arg3 : Memref sig .tc .vmem S1024x1024 .f32) (harg3 : arg3.IsWhole) (arg4 : Memref sig .tc .vmem S512x1024 .i32) (harg4 : arg4.IsWhole) (arg5 : Memref sig .tc .vmem S512x8x1 .f32) (harg5 : arg5.IsWhole) (arg6 : Memref sig .tc .vmem S512x8x1 .f32) (harg6 : arg6.IsWhole) (arg7 : Memref sig .tc .vmem S1024 .f32) (harg7 : arg7.IsWhole) (arg8 : Memref sig .tc .vmem S512 .f32) (harg8 : arg8.IsWhole) (arg9 : Memref sig .tc .vmem S512 .f32) (harg9 : arg9.IsWhole) (arg10 : Memref sig .tc .vmem S1024x512 .f32) (harg10 : arg10.IsWhole) (arg11 : Memref sig .tc .vmem S1024x512 .f32) (harg11 : arg11.IsWhole) (hc0 : cond0_0 i) (hc1 : ¬cond0_1 i) (x0 : Vec F S1024x1024 .f32) (x1 : Vec F S512x1024 .i32) (x2 : Vec F S512x8x1 .f32) (x3 : Vec F S512x8x1 .f32) (x4 : Vec F S1024 .f32) (x5 : Vec F S512 .f32) (x6 : Vec F S512 .f32) :
    sout0_A_0 c i arg3 harg3 arg4 harg4 arg5 harg5 arg6 harg6 arg7 harg7 arg8 harg8 arg9 harg9 arg10 harg10 arg11 harg11 hc0 hc1 x0 x1 x2 x3 x4 x5 x6 = newAcc x0 x1 x2 x3 x4 x5 zeroAcc := by
  unfold sout0_A_0
  rw [View.read_writes_eq_canon _ _ _ (scover0_A_0 c i arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_cons_unit_zero (S := S1024x512) hz2]
  simp only [View.readCov_unit_zero (S := S1024x512) _ hz2, View.readAt_eq_ld, harg3.read_unread, harg4.read_unread, harg5.read_unread, harg6.read_unread, harg7.read_unread, harg8.read_unread, harg9.read_unread, harg11.read_unread, View.ld_unit_zero (S := S512x8x1) hz3, View.ld_unit_zero (S := S1024) hz1, View.ld_unit_zero (S := S512) hz1, View.ld_unit_zero (S := S1024x512) hz2]
  rfl

end Cert.KernelIdeal.Pieces

end
-- ==== Proof.Blocks.lean ====
/-
  The blocks a grid point works on, as entries of the whole arrays. Point t of the 32 works on output column block
  j = t / 4 (512 rows of the weights) and contraction tile l = t % 4 (1024 columns):

      x block      (p, c)    is x      (p, 1024 l + c)
      weight block (r, c)    is q      (512 j + r, 1024 l + c)
      scale / zero (r, g, 0) is scale / zero (512 j + r, 8 l + g, 0)
      mu1 block    (c)       is mu1    (1024 l + c)
      mu2, bias    (r)       is mu2, bias (512 j + r).
-/
import proofs.«165393_j64330020159905_1_alg».proof.Proof.Gen.KernelIdeal.Frame
import Idealize.ShloMosaic.Lib.Pipeline.Value
import Idealize.ShloMosaic.Lib.ValueIdx

noncomputable section

namespace Cert.KernelIdeal.Blocks

open Idealize.ShloMosaic Idealize.ShloMosaic.TcCoe Idealize.ShloMosaic.ValueIdx Idealize.SL.Sem
open Cert.KernelIdeal Cert.KernelIdeal.Gen

variable {F : FTy → Type} [FloatOps F]
variable (m : (ℓ : Loc nD τ sig) → Buf (Elt F) ℓ)

/-- Which block of each array point t works on. -/
theorem idx_facts : ∀ t : Fin cfg0.N,
    win0_0.index t (0 : Fin 2) = 0 ∧ win0_0.index t (1 : Fin 2) = t.val % 4
    ∧ win0_1.index t (0 : Fin 2) = t.val / 4 ∧ win0_1.index t (1 : Fin 2) = t.val % 4
    ∧ win0_2.index t (0 : Fin 3) = t.val / 4 ∧ win0_2.index t (1 : Fin 3) = t.val % 4 ∧ win0_2.index t (2 : Fin 3) = 0
    ∧ win0_3.index t (0 : Fin 3) = t.val / 4 ∧ win0_3.index t (1 : Fin 3) = t.val % 4 ∧ win0_3.index t (2 : Fin 3) = 0
    ∧ win0_4.index t (0 : Fin 1) = t.val % 4 ∧ win0_5.index t (0 : Fin 1) = t.val / 4 ∧ win0_6.index t (0 : Fin 1) = t.val / 4
    ∧ win0_7.index t (0 : Fin 2) = 0 ∧ win0_7.index t (1 : Fin 2) = t.val / 4 :=
  (by decide +kernel : ∀ t : Fin grid0.N, _)

theorem blk0_apply (c : Dev nD) (t : Fin cfg0.N) (p : Fin 1024) (cc : Fin 1024) :
    (iblk m c 0 t : Vec F S1024x1024 .f32) (ix2 p cc)
      = (V m c main_v0 : Vec F S1024x4096 .f32) (ix2 p (⟨1024 * (t.val % 4) + cc.val, by have := cc.isLt; omega⟩ : Fin 4096)) := by
  have hN : t.val < 32 := lt_of_lt_of_eq t.isLt (show cfg0.N = 32 from N_0)
  unfold iblk
  rw [View.read_apply]
  show V m c main_v0 _ = V m c main_v0 _
  congr 1
  funext a
  apply Fin.ext
  match a with
  | ⟨0, _⟩ => show win0_0.index t 0 * 1024 + 1 * p.val = p.val; rw [(idx_facts t).1]; omega
  | ⟨1, _⟩ => show win0_0.index t 1 * 1024 + 1 * cc.val = 1024 * (t.val % 4) + cc.val; rw [(idx_facts t).2.1]; omega

theorem blk1_apply (c : Dev nD) (t : Fin cfg0.N) (r : Fin 512) (cc : Fin 1024) :
    (iblk m c 1 t : Vec F S512x1024 .i32) (ix2 r cc)
      = (V m c main_arg1 : Vec F S4096x4096 .i32) (ix2 (⟨512 * (t.val / 4) + r.val, by have := r.isLt; have hN : t.val < 32 := lt_of_lt_of_eq t.isLt (show cfg0.N = 32 from N_0); omega⟩ : Fin 4096) (⟨1024 * (t.val % 4) + cc.val, by have := cc.isLt; omega⟩ : Fin 4096)) := by
  have hN : t.val < 32 := lt_of_lt_of_eq t.isLt (show cfg0.N = 32 from N_0)
  unfold iblk
  rw [View.read_apply]
  show V m c main_arg1 _ = V m c main_arg1 _
  congr 1
  funext a
  apply Fin.ext
  match a with
  | ⟨0, _⟩ => show win0_1.index t 0 * 512 + 1 * r.val = 512 * (t.val / 4) + r.val; rw [(idx_facts t).2.2.1]; omega
  | ⟨1, _⟩ => show win0_1.index t 1 * 1024 + 1 * cc.val = 1024 * (t.val % 4) + cc.val; rw [(idx_facts t).2.2.2.1]; omega

theorem blk2_apply (c : Dev nD) (t : Fin cfg0.N) (r : Fin 512) (g : Fin 8) (u : Fin 1) :
    (iblk m c 2 t : Vec F S512x8x1 .f32) (ix3 r g u)
      = (V m c main_arg2 : Vec F S4096x32x1 .f32) (ix3 (⟨512 * (t.val / 4) + r.val, by have := r.isLt; have hN : t.val < 32 := lt_of_lt_of_eq t.isLt (show cfg0.N = 32 from N_0); omega⟩ : Fin 4096) (⟨8 * (t.val % 4) + g.val, by have := g.isLt; omega⟩ : Fin 32) (0 : Fin 1)) := by
  have hN : t.val < 32 := lt_of_lt_of_eq t.isLt (show cfg0.N = 32 from N_0)
  unfold iblk
  rw [View.read_apply]
  show V m c main_arg2 _ = V m c main_arg2 _
  congr 1
  funext a
  apply Fin.ext
  match a with
  | ⟨0, _⟩ => show win0_2.index t 0 * 512 + 1 * r.val = 512 * (t.val / 4) + r.val; rw [(idx_facts t).2.2.2.2.1]; omega
  | ⟨1, _⟩ => show win0_2.index t 1 * 8 + 1 * g.val = 8 * (t.val % 4) + g.val; rw [(idx_facts t).2.2.2.2.2.1]; omega
  | ⟨2, _⟩ => show win0_2.index t 2 * 1 + 1 * u.val = 0; rw [(idx_facts t).2.2.2.2.2.2.1]; omega

theorem blk3_apply (c : Dev nD) (t : Fin cfg0.N) (r : Fin 512) (g : Fin 8) (u : Fin 1) :
    (iblk m c 3 t : Vec F S512x8x1 .f32) (ix3 r g u)
      = (V m c main_arg3 : Vec F S4096x32x1 .f32) (ix3 (⟨512 * (t.val / 4) + r.val, by have := r.isLt; have hN : t.val < 32 := lt_of_lt_of_eq t.isLt (show cfg0.N = 32 from N_0); omega⟩ : Fin 4096) (⟨8 * (t.val % 4) + g.val, by have := g.isLt; omega⟩ : Fin 32) (0 : Fin 1)) := by
  have hN : t.val < 32 := lt_of_lt_of_eq t.isLt (show cfg0.N = 32 from N_0)
  unfold iblk
  rw [View.read_apply]
  show V m c main_arg3 _ = V m c main_arg3 _
  congr 1
  funext a
  apply Fin.ext
  match a with
  | ⟨0, _⟩ => show win0_3.index t 0 * 512 + 1 * r.val = 512 * (t.val / 4) + r.val; rw [(idx_facts t).2.2.2.2.2.2.2.1]; omega
  | ⟨1, _⟩ => show win0_3.index t 1 * 8 + 1 * g.val = 8 * (t.val % 4) + g.val; rw [(idx_facts t).2.2.2.2.2.2.2.2.1]; omega
  | ⟨2, _⟩ => show win0_3.index t 2 * 1 + 1 * u.val = 0; rw [(idx_facts t).2.2.2.2.2.2.2.2.2.1]; omega

theorem blk4_apply (c : Dev nD) (t : Fin cfg0.N) (cc : Fin 1024) :
    (iblk m c 4 t : Vec F S1024 .f32) (ix1 cc)
      = (V m c main_arg4 : Vec F S4096 .f32) (ix1 (⟨1024 * (t.val % 4) + cc.val, by have := cc.isLt; omega⟩ : Fin 4096)) := by
  have hN : t.val < 32 := lt_of_lt_of_eq t.isLt (show cfg0.N = 32 from N_0)
  unfold iblk
  rw [View.read_apply]
  show V m c main_arg4 _ = V m c main_arg4 _
  congr 1
  funext a
  apply Fin.ext
  match a with
  | ⟨0, _⟩ => show win0_4.index t 0 * 1024 + 1 * cc.val = 1024 * (t.val % 4) + cc.val; rw [(idx_facts t).2.2.2.2.2.2.2.2.2.2.1]; omega

theorem blk5_apply (c : Dev nD) (t : Fin cfg0.N) (r : Fin 512) :
    (iblk m c 5 t : Vec F S512 .f32) (ix1 r)
      = (V m c main_arg5 : Vec F S4096 .f32) (ix1 (⟨512 * (t.val / 4) + r.val, by have := r.isLt; have hN : t.val < 32 := lt_of_lt_of_eq t.isLt (show cfg0.N = 32 from N_0); omega⟩ : Fin 4096)) := by
  have hN : t.val < 32 := lt_of_lt_of_eq t.isLt (show cfg0.N = 32 from N_0)
  unfold iblk
  rw [View.read_apply]
  show V m c main_arg5 _ = V m c main_arg5 _
  congr 1
  funext a
  apply Fin.ext
  match a with
  | ⟨0, _⟩ => show win0_5.index t 0 * 512 + 1 * r.val = 512 * (t.val / 4) + r.val; rw [(idx_facts t).2.2.2.2.2.2.2.2.2.2.2.1]; omega

theorem blk6_apply (c : Dev nD) (t : Fin cfg0.N) (r : Fin 512) :
    (iblk m c 6 t : Vec F S512 .f32) (ix1 r)
      = (V m c main_arg6 : Vec F S4096 .f32) (ix1 (⟨512 * (t.val / 4) + r.val, by have := r.isLt; have hN : t.val < 32 := lt_of_lt_of_eq t.isLt (show cfg0.N = 32 from N_0); omega⟩ : Fin 4096)) := by
  have hN : t.val < 32 := lt_of_lt_of_eq t.isLt (show cfg0.N = 32 from N_0)
  unfold iblk
  rw [View.read_apply]
  show V m c main_arg6 _ = V m c main_arg6 _
  congr 1
  funext a
  apply Fin.ext
  match a with
  | ⟨0, _⟩ => show win0_6.index t 0 * 512 + 1 * r.val = 512 * (t.val / 4) + r.val; rw [(idx_facts t).2.2.2.2.2.2.2.2.2.2.2.2.1]; omega

end Cert.KernelIdeal.Blocks

end
-- ==== Proof.Accum.lean ====
/-
  The accumulator from one grid point to the next. The four points t = 4 j, 4 j + 1, 4 j + 2, 4 j + 3 of an output
  column block j run through the four contraction tiles: the first zeroes the accumulator and adds its tile, the next
  two add theirs onto what the point before left, and the last adds its tile and writes the block out with the bias.
-/
import proofs.«165393_j64330020159905_1_alg».proof.Proof.Pieces
import proofs.«165393_j64330020159905_1_alg».proof.Proof.Blocks

noncomputable section

namespace Cert.KernelIdeal.Accum

open Idealize.ShloMosaic Idealize.ShloMosaic.TcCoe Idealize.ShloMosaic.ValueIdx Idealize.SL.Sem
open Cert.KernelIdeal Cert.KernelIdeal.Gen Cert.KernelIdeal.Pieces

variable {F : FTy → Type} [FloatOps F]
variable (m : (ℓ : Loc nD τ sig) → Buf (Elt F) ℓ)

/-- The blocks point t is handed, at their literal shapes. -/
def xblk (c : Dev nD) (t : Fin cfg0.N) : Vec F S1024x1024 .f32 := iblk m c 0 t
def qblk (c : Dev nD) (t : Fin cfg0.N) : Vec F S512x1024 .i32 := iblk m c 1 t
def scblk (c : Dev nD) (t : Fin cfg0.N) : Vec F S512x8x1 .f32 := iblk m c 2 t
def zrblk (c : Dev nD) (t : Fin cfg0.N) : Vec F S512x8x1 .f32 := iblk m c 3 t
def m1blk (c : Dev nD) (t : Fin cfg0.N) : Vec F S1024 .f32 := iblk m c 4 t
def m2blk (c : Dev nD) (t : Fin cfg0.N) : Vec F S512 .f32 := iblk m c 5 t
def bblk (c : Dev nD) (t : Fin cfg0.N) : Vec F S512 .f32 := iblk m c 6 t

/-- The accumulator after point t, which found it holding a. -/
def after (c : Dev nD) (t : Fin cfg0.N) (a : Vec F S1024x512 .f32) : Vec F S1024x512 .f32 :=
  newAcc (xblk m c t) (qblk m c t) (scblk m c t) (zrblk m c t) (m1blk m c t) (m2blk m c t) a

/-- The point before t. -/
theorem pred_lt (t : Fin cfg0.N) : t.val - 1 < cfg0.N := Nat.lt_of_le_of_lt (Nat.sub_le _ _) t.isLt

/-- After the first tile of a block: the tile alone. -/
theorem scr_first (c : Dev nD) (t : Fin cfg0.N) (h0 : t.val % 4 = 0) :
    (outsAt0 m c t.val t.isLt).2 = after m c t zeroAcc := by
  have h1 : ¬t.val % 4 = 3 := by omega
  rw [outsAt0_A m c t h0 h1]
  have h := scratch_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t)
  dsimp only
  unfold after xblk qblk scblk zrblk m1blk m2blk
  exact h

/-- After a middle tile: the tile on top of what the point before left. -/
theorem scr_mid (c : Dev nD) (t : Fin cfg0.N) (h0 : ¬t.val % 4 = 0) (h1 : ¬t.val % 4 = 3) :
    (outsAt0 m c t.val t.isLt).2 = after m c t (outsAt0 m c (t.val - 1) (pred_lt t)).2 := by
  rw [outsAt0_B m c t h0 h1]
  have h := scratch_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (pred_lt t)).2
  dsimp only
  unfold after xblk qblk scblk zrblk m1blk m2blk
  exact h

/-- At the last tile the block is written: the tile on top of what the point before left, plus the bias. -/
theorem out_last (c : Dev nD) (t : Fin cfg0.N) (h1 : t.val % 4 = 3) :
    (outsAt0 m c t.val t.isLt).1 = withBias (after m c t (outsAt0 m c (t.val - 1) (pred_lt t)).2) (bblk m c t) := by
  have h0 : ¬t.val % 4 = 0 := by omega
  rw [outsAt0_C m c t h0 h1]
  have h := out_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (pred_lt t)).2
  dsimp only
  unfold after xblk qblk scblk zrblk m1blk m2blk bblk
  exact h

end Cert.KernelIdeal.Accum

end
-- ==== Proof.Reads.lean ====
/-
  Layout operations of the kernel body read at an index given by coordinates; no program is mentioned.

  * one group's column of a [a, G, 1] parameter array: the slice [0:a, g:g+1, 0:1] listed as [a, 1];
  * a run of b lanes of a vector, from lane o on, as a row [1, b];
  * a vector [b] as a row [1, b];
  * a load through a rectangle of a matrix, at unit strides: entry (p, c) of the load is entry (o0 + p, o1 + c);
    and the same for a run of whole columns.
-/
import Idealize.ShloMosaic.Lib.Pipeline.Value
import Idealize.ShloMosaic.Lib.Pipeline.FrameBody
import Idealize.ShloMosaic.Lib.ValueIdx
import Idealize.ShloMosaic.Lib.ValueLayout

noncomputable section

namespace Cert.Reads

open Idealize.ShloMosaic Idealize.ShloMosaic.ValueIdx

variable {α : Type}

/-- Group g's column of an [a, G, 1] array, listed as [a, 1], reads at (r, u) the array at (r, g, 0). -/
theorem groupCol_apply {a G : ℕ} (g : ℕ) (hg : g < G) (v : (⟨3, ![a, G, 1]⟩ : Shape).Idx → α)
    (hs : (⟨3, ![a, G, 1]⟩ : Shape).Slices ![0, g, 0] ⟨3, ![a, 1, 1]⟩)
    (hc : (⟨3, ![a, 1, 1]⟩ : Shape).ShapeCasts ⟨2, ![a, 1]⟩) (r : Fin a) (u : Fin 1) :
    shapeCast ⟨2, ![a, 1]⟩ (extractStridedSlice ⟨3, ![a, 1, 1]⟩ ![0, g, 0] v hs) hc (ix2 r u)
      = v (ix3 r (⟨g, hg⟩ : Fin G) (0 : Fin 1)) := by
  rw [shapeCast_apply _ hc (ix2 r u) (ix3 r (0 : Fin 1) (0 : Fin 1)) (by
    have hu : u.val = 0 := by omega
    rw [Shape.rowMajor_val_three, Shape.rowMajor_val_two]
    show (r.val * 1 + 0) * 1 + 0 = r.val * 1 + u.val
    omega)]
  refine extractStridedSlice_apply _ v hs _ _ fun ax => ?_
  match ax with
  | ⟨0, _⟩ => show r.val = 0 + r.val; omega
  | ⟨1, _⟩ => show g = g + 0; omega
  | ⟨2, _⟩ => show 0 = 0 + 0; rfl

/-- Lanes o … o + b - 1 of an [n] vector, listed as a row [1, b], read at (u, c) the vector at o + c. -/
theorem laneRun_apply {n b : ℕ} (o : ℕ) (v : (⟨1, ![n]⟩ : Shape).Idx → α)
    (hs : (⟨1, ![n]⟩ : Shape).Slices ![o] ⟨1, ![b]⟩) (hc : (⟨1, ![b]⟩ : Shape).ShapeCasts ⟨2, ![1, b]⟩)
    (u : Fin 1) (c : Fin b) (hoc : o + c.val < n) :
    shapeCast ⟨2, ![1, b]⟩ (extractStridedSlice ⟨1, ![b]⟩ ![o] v hs) hc (ix2 u c) = v (ix1 (⟨o + c.val, hoc⟩ : Fin n)) := by
  rw [shapeCast_a_1a_apply _ hc u c]
  refine extractStridedSlice_apply _ v hs _ _ fun ax => ?_
  match ax with
  | ⟨0, _⟩ => rfl

/-- A load through the rectangle of sizes [s0, s1] at offsets [o0, o1] of a matrix reads, at (p, c), the matrix at
    (o0 + p, o1 + c). -/
theorem ld2_apply {Val : EltTy → Type} {e : EltTy} {n0 n1 s0 s1 : ℕ} (o0 o1 : ℕ) (X : (⟨2, ![n0, n1]⟩ : Shape).Idx → Val e)
    (inb : ∀ a, (![o0, o1] : Fin 2 → ℕ) a + (![s0, s1] : Fin 2 → ℕ) a ≤ (⟨2, ![n0, n1]⟩ : Shape).size a)
    (p : Fin s0) (c : Fin s1) (h0 : o0 + p.val < n0) (h1 : o1 + c.val < n1) :
    View.ld X (Rect.unit (s := ⟨2, ![n0, n1]⟩) ![o0, o1] ![s0, s1] inb) (ix2 p c)
      = X (ix2 (⟨o0 + p.val, h0⟩ : Fin n0) (⟨o1 + c.val, h1⟩ : Fin n1)) := by
  show X _ = X _
  refine congrArg X (funext fun ax => Fin.ext ?_)
  match ax with
  | ⟨0, _⟩ => show o0 + 1 * p.val = o0 + p.val; omega
  | ⟨1, _⟩ => show o1 + 1 * c.val = o1 + c.val; omega

/-- A load of s1 whole columns of a matrix from column o on reads, at (p, c), the matrix at (p, o + c). -/
theorem ldCols_apply {Val : EltTy → Type} {e : EltTy} {n0 n1 s1 : ℕ} (o : ℕ) (X : (⟨2, ![n0, n1]⟩ : Shape).Idx → Val e)
    (inb : ∀ a, (![0, o] : Fin 2 → ℕ) a + (![n0, s1] : Fin 2 → ℕ) a ≤ (⟨2, ![n0, n1]⟩ : Shape).size a)
    (p : Fin n0) (c : Fin s1) (h1 : o + c.val < n1) :
    View.ld X (Rect.unit (s := ⟨2, ![n0, n1]⟩) ![0, o] ![n0, s1] inb) (ix2 p c) = X (ix2 p (⟨o + c.val, h1⟩ : Fin n1)) := by
  show X _ = X _
  refine congrArg X (funext fun ax => Fin.ext ?_)
  match ax with
  | ⟨0, _⟩ => show 0 + 1 * p.val = p.val; omega
  | ⟨1, _⟩ => show o + 1 * c.val = o + c.val; omega

end Cert.Reads

end
-- ==== Proof.LibLanes.lean ====
/-
  GENERAL LEMMAS: a contraction of the lanes of two matrices — (A * B^T)(p, q) = sum over k of A(p, k) * B(q, k) — read at
  an index on extended reals, in the two spellings a kernel and a host program give it. Nothing here mentions a program;
  the extents R (rows of A), N (rows of B) and K (the contracted lanes) are arbitrary.

  * idx2_ext: two rank-2 indices with the same coordinates are one index.
  * contraction_lanes: a contraction of axis 1 of an [R, K] array with axis 1 of an [N, K] array (no batch axes), read
    at (p, q), is the sum over k : Fin K of l (p, k) * r (q, k); the dimension record enters only through four coordinate
    facts about its operand indices (for a printed record: two by unfolding, two by DotDims.lhsIdx_val_of_single /
    rhsIdx_val_of_single) and the rank and extent of its contraction shape (both rfl).
  * matmul_lanes: the kernel's spelling — the matrix unit's product into a zero accumulator — at (p, q).
  * hostdot_lanes: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibLanes

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the lanes of an [N, K] array, read at (p, q): the sum over
    k of l(p, k) * r(q, k). The dimension record enters through four coordinate facts and the extent of its one
    contracted axis. -/
theorem contraction_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : (⟨2, ![R, K]⟩ : Shape).Idx → EReal) (r : (⟨2, ![N, K]⟩ : Shape).Idx → EReal) (p : Fin R) (q : Fin N) :
    ∑ s : d.contr.Idx, l (d.lhsIdx (ix2 p q) s) * r (d.rhsIdx (ix2 p q) s) = ∑ k : Fin K, l (ix2 p k) * r (ix2 q k) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 q k :=
    idx2_ext _ _ (hr0 _ _) ((hr1 _ _).trans hk)
  rw [el, er]

/-- The matrix unit's product into a zero accumulator, read at (p, q). -/
theorem matmul_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    {φ₁ φ₂ : FTy} (l : FVec Ideal ⟨2, ![R, K]⟩ φ₁) (r : FVec Ideal ⟨2, ![N, K]⟩ φ₂) (p : Fin R) (q : Fin N) :
    matmul d none l r (constant (F := Ideal) ⟨2, ![R, N]⟩ .f32 0x00000000#32) (ix2 p q)
      = ∑ k : Fin K, l (ix2 p k) * r (ix2 q k) :=
  (Ideal.matmul_constant_zero_apply d none l r (ix2 p q)).trans
    (contraction_lanes d hrank hsize hl0 hl1 hr0 hr1 l r p q)

/-- The host's dot_general, read at (p, q). -/
theorem hostdot_lanes {R K N : ℕ} (d : DotDims ⟨2, ![R, K]⟩ ⟨2, ![N, K]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (i 1).val)
    (hr1 : ∀ (i : (⟨2, ![R, N]⟩ : Shape).Idx) (s : d.contr.Idx), (d.rhsIdx i s 1).val = (s ⟨0, by omega⟩).val)
    (l : FVec Ideal ⟨2, ![R, K]⟩ .f32) (r : FVec Ideal ⟨2, ![N, K]⟩ .f32) (p : Fin R) (q : Fin N) :
    Host.dotGeneral d none l r (ix2 p q) = ∑ k : Fin K, l (ix2 p k) * r (ix2 q k) :=
  (Ideal.dotGeneral_apply d none .single l r (ix2 p q)).trans
    (contraction_lanes d hrank hsize hl0 hl1 hr0 hr1 l r p q)

end Cert.LibLanes

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.BodyIdeal.lean ====
/-
  One group's product, read at an output entry on the extended reals. With the group's 128 columns xs of x, its
  integer weights qs, and the parameters of the tile, entry (p, r) of the product is

      ∑ c < 128, xs(p, c) * ((((q(r, c) - zero(r, g)) * scale(r, g)) * mu2(r)) * mu1(o + c)),

  where g is the group and o its first column inside the tile. The matrix unit's product into zero is the plain sum
  over the contracted lanes, a change of float format is the identity, and the four broadcasts read the column or the
  row they were built from.
-/
import proofs.«165393_j64330020159905_1_alg».proof.Proof.Body
import proofs.«165393_j64330020159905_1_alg».proof.Proof.Reads
import proofs.«165393_j64330020159905_1_alg».proof.Proof.LibLanes
import proofs.«165393_j64330020159905_1_alg».proof.Proof.LibLayout

noncomputable section

namespace Cert.KernelIdeal.Body

open Idealize.ShloMosaic Idealize.ShloMosaic.ValueIdx Cert.KernelIdeal Cert.KernelIdeal.Gen
open scoped BigOperators

/-- Row p of the left operand and row r of the right one meet lane by lane: the record's four coordinate facts. -/
theorem dot_l0 (i : S1024x512.Idx) (s : dot_S1024x128_S512x128_S1024x512_1_1_0_0_n_n.contr.Idx) :
    (dot_S1024x128_S512x128_S1024x512_1_1_0_0_n_n.lhsIdx i s 0).val = (i 0).val := by
  unfold DotDims.lhsIdx
  rw [dif_neg (show ¬(0 : Fin S1024x128.rank) ∈ dot_S1024x128_S512x128_S1024x512_1_1_0_0_n_n.lhsBatch by decide),
    dif_pos (show (0 : Fin S1024x128.rank) ∈ dot_S1024x128_S512x128_S1024x512_1_1_0_0_n_n.lhsNonContracting by decide)]
  rfl

theorem dot_l1 (i : S1024x512.Idx) (s : dot_S1024x128_S512x128_S1024x512_1_1_0_0_n_n.contr.Idx) :
    (dot_S1024x128_S512x128_S1024x512_1_1_0_0_n_n.lhsIdx i s 1).val = (s ⟨0, by decide⟩).val :=
  dot_S1024x128_S512x128_S1024x512_1_1_0_0_n_n.lhsIdx_val_of_single rfl i s

theorem dot_r0 (i : S1024x512.Idx) (s : dot_S1024x128_S512x128_S1024x512_1_1_0_0_n_n.contr.Idx) :
    (dot_S1024x128_S512x128_S1024x512_1_1_0_0_n_n.rhsIdx i s 0).val = (i 1).val := by
  unfold DotDims.rhsIdx
  rw [dif_neg (show ¬(0 : Fin S512x128.rank) ∈ dot_S1024x128_S512x128_S1024x512_1_1_0_0_n_n.rhsBatch by decide),
    dif_pos (show (0 : Fin S512x128.rank) ∈ dot_S1024x128_S512x128_S1024x512_1_1_0_0_n_n.rhsNonContracting by decide)]
  rfl

theorem dot_r1 (i : S1024x512.Idx) (s : dot_S1024x128_S512x128_S1024x512_1_1_0_0_n_n.contr.Idx) :
    (dot_S1024x128_S512x128_S1024x512_1_1_0_0_n_n.rhsIdx i s 1).val = (s ⟨0, by decide⟩).val :=
  dot_S1024x128_S512x128_S1024x512_1_1_0_0_n_n.rhsIdx_val_of_single rfl i s

/-- The product of the group's columns of x with the transposed weights, at (p, r): the sum over the 128 lanes. -/
theorem prod_apply (w : FVec Ideal S512x128 .bf16) (xs : FVec Ideal S1024x128 .f32) (p : Fin 1024) (r : Fin 512) :
    prod (F := Ideal) w xs (ix2 p r) = ∑ c : Fin 128, xs (ix2 p c) * w (ix2 r c) := by
  unfold prod
  rw [Cert.LibLanes.matmul_lanes dot_S1024x128_S512x128_S1024x512_1_1_0_0_n_n rfl rfl dot_l0 dot_l1 dot_r0 dot_r1]
  refine Finset.sum_congr rfl fun c _ => ?_
  rw [truncf_apply, shapeCast_self]

/-- The group's weights at (r, c). -/
theorem weights_apply (g : ℕ) (hg : g < 8) (h3 : S512x8x1.Slices ![0, g, 0] S512x1x1) (o : ℕ) (h1 : S1024.Slices ![o] S128)
    (sc zr : FVec Ideal S512x8x1 .f32) (m1 : FVec Ideal S1024 .f32) (m2 : FVec Ideal S512 .f32) (qs : Vec Ideal S512x128 .i32)
    (r : Fin 512) (c : Fin 128) (hoc : o + c.val < 1024) :
    wb (F := Ideal) (wfull (wrow (sitofp .f32 qs) (gcol ![0, g, 0] h3 zr) (gcol ![0, g, 0] h3 sc) (m2col m2)) ![o] h1 m1) (ix2 r c)
      = (((FloatOps.sitofp (F := Ideal) .f32 (qs (ix2 r c)) - zr (ix3 r (⟨g, hg⟩ : Fin 8) (0 : Fin 1)))
            * sc (ix3 r (⟨g, hg⟩ : Fin 8) (0 : Fin 1))) * m2 (ix1 r)) * m1 (ix1 (⟨o + c.val, hoc⟩ : Fin 1024)) := by
  unfold wb wfull wrow gcol m2col
  rw [truncf_apply, mulf_apply, mulf_apply, mulf_apply, subf_apply, sitofp_apply,
    Cert.LibLayout.broadcastTo_a1_ab_apply, Cert.LibLayout.broadcastTo_a1_ab_apply, Cert.LibLayout.broadcastTo_a1_ab_apply,
    Cert.Reads.groupCol_apply g hg zr, Cert.Reads.groupCol_apply g hg sc, Cert.LibLayout.shapeCast_a_a1_apply,
    broadcastTo_1b_ab_apply, Cert.Reads.laneRun_apply o m1 h1 _ _ c hoc]

/-- Group g's contribution at (p, r). -/
theorem term_apply (g : ℕ) (hg : g < 8) (h3 : S512x8x1.Slices ![0, g, 0] S512x1x1) (o : ℕ) (h1 : S1024.Slices ![o] S128)
    (ho : o + 128 ≤ 1024)
    (sc zr : FVec Ideal S512x8x1 .f32) (m1 : FVec Ideal S1024 .f32) (m2 : FVec Ideal S512 .f32) (qs : Vec Ideal S512x128 .i32)
    (xs : FVec Ideal S1024x128 .f32) (p : Fin 1024) (r : Fin 512) :
    term (F := Ideal) ![0, g, 0] h3 ![o] h1 sc zr m1 m2 qs xs (ix2 p r)
      = ∑ c : Fin 128, xs (ix2 p c) * ((((FloatOps.sitofp (F := Ideal) .f32 (qs (ix2 r c)) - zr (ix3 r (⟨g, hg⟩ : Fin 8) (0 : Fin 1)))
            * sc (ix3 r (⟨g, hg⟩ : Fin 8) (0 : Fin 1))) * m2 (ix1 r))
            * m1 (ix1 (⟨o + c.val, by have := c.isLt; omega⟩ : Fin 1024))) := by
  unfold term
  rw [prod_apply]
  refine Finset.sum_congr rfl fun c _ => ?_
  rw [weights_apply g hg h3 o h1 sc zr m1 m2 qs r c (by have := c.isLt; omega)]

end Cert.KernelIdeal.Body

end
-- ==== Proof.LibMomentsSums.lean ====
/-
  GENERAL lemmas on finite sums over an additive commutative monoid (so they hold on the extended reals with no
  finiteness hypothesis).

  * A sum over K * b indices is the sum over K consecutive blocks of width b (the index b * k + i of block k,
    place i, runs through every index exactly once).
  * The padded blocked sum: 80 rows, of which only the rows 8 t (t = 0 … 9) are nonzero and row 8 t holds the
    sum of block t of a family of 50000 terms cut into 10 blocks of width 5000; the sum of the 80 rows is the
    sum of the 50000 terms.
  * A sum over 384 indices is the sum of three sums over 128 indices (k, 128 + k, 256 + k).
-/
import Mathlib.Algebra.BigOperators.Fin
import Mathlib.Algebra.BigOperators.Group.Finset.Basic
import Mathlib.Logic.Equiv.Fin.Basic
import Mathlib.Tactic.Ring

namespace Cert.LibMoments

open scoped BigOperators

variable {M : Type*} [AddCommMonoid M]

/-! ## Blocks -/

/-- Place i of block k is an index of the whole. -/
theorem idx_lt {K b : ℕ} (k : Fin K) (i : Fin b) : i.val + b * k.val < K * b := by
  have hk : k.val + 1 ≤ K := k.isLt
  calc i.val + b * k.val < b + b * k.val := Nat.add_lt_add_right i.isLt _
    _ = b * (k.val + 1) := by ring
    _ ≤ b * K := Nat.mul_le_mul_left _ hk
    _ = K * b := Nat.mul_comm _ _

/-- A sum over K * b indices, block by block: (k, i) ↦ i + b * k is a bijection of pairs with indices. -/
theorem sum_fin_mul (K b : ℕ) (f : Fin (K * b) → M) :
    ∑ j : Fin (K * b), f j = ∑ k : Fin K, ∑ i : Fin b, f ⟨i.val + b * k.val, idx_lt k i⟩ := by
  rw [← (finProdFinEquiv (m := K) (n := b)).sum_comp f, Fintype.sum_prod_type]
  rfl

/-! ## The padded blocked sum -/

/-- Place q of the block that row r names (block r / 8) is one of the 50000 indices. -/
theorem pad_lt (r : Fin 80) (q : Fin 5000) : 5000 * (r.val / 8) + q.val < 50000 := by
  have := r.isLt; have := q.isLt; omega

/-- The padded blocked sum, with the rows' entries given as a function G r q and the index relation as a
    hypothesis on values (only asked at the rows that count, r % 8 = 0): any spelling of the index applies. -/
theorem padded_sum_of (g : Fin 50000 → M) (G : Fin 80 → Fin 5000 → M)
    (hG : ∀ (r : Fin 80) (q : Fin 5000) (p : Fin 50000), r.val % 8 = 0 → p.val = 5000 * (r.val / 8) + q.val →
      G r q = g p) :
    ∑ r : Fin 80, (if r.val % 8 = 0 then ∑ q : Fin 5000, G r q else 0) = ∑ p : Fin 50000, g p := by
  have e1 := sum_fin_mul (M := M) 10 8 (fun r : Fin 80 => if r.val % 8 = 0 then ∑ q : Fin 5000, G r q else 0)
  have e2 := sum_fin_mul (M := M) 10 5000 g
  refine (e1.trans ?_).trans e2.symm
  refine Fintype.sum_congr _ _ fun t => ?_
  have h0 : ∀ i : Fin 8, i ≠ 0 → ¬ ((i.val + 8 * t.val) % 8 = 0) := by
    intro i hi h
    apply hi
    apply Fin.ext
    have := i.isLt
    show i.val = 0
    omega
  rw [Finset.sum_eq_single (0 : Fin 8) (fun i _ hi => if_neg (h0 i hi)) (fun h => absurd (Finset.mem_univ _) h)]
  have hz : ((0 : Fin 8).val + 8 * t.val) % 8 = 0 := by
    show (0 + 8 * t.val) % 8 = 0
    omega
  rw [if_pos hz]
  refine Fintype.sum_congr _ _ fun q => hG _ q _ hz ?_
  show q.val + 5000 * t.val = 5000 * ((0 + 8 * t.val) / 8) + q.val
  omega

/-- The padded blocked sum in its literal form. -/
theorem padded_sum (g : Fin 50000 → M) :
    ∑ r : Fin 80, (if r.val % 8 = 0 then ∑ q : Fin 5000, g ⟨5000 * (r.val / 8) + q.val, pad_lt r q⟩ else 0)
      = ∑ p : Fin 50000, g p :=
  padded_sum_of g _ fun _ _ _ _ hp => congrArg g (Fin.ext hp.symm)

/-- The same with any family of proofs of the bound. -/
theorem padded_sum' (g : Fin 50000 → M) (h : ∀ (r : Fin 80) (q : Fin 5000), 5000 * (r.val / 8) + q.val < 50000) :
    ∑ r : Fin 80, (if r.val % 8 = 0 then ∑ q : Fin 5000, g ⟨5000 * (r.val / 8) + q.val, h r q⟩ else 0)
      = ∑ p : Fin 50000, g p :=
  padded_sum g

/-! ## Three blocks of width 128 -/

/-- A sum over 384 indices as three sums over 128, the three families given as functions and the index relations
    as hypotheses on values. -/
theorem sum_384_of (f : Fin 384 → M) (a b c : Fin 128 → M)
    (ha : ∀ (k : Fin 128) (j : Fin 384), j.val = k.val → a k = f j)
    (hb : ∀ (k : Fin 128) (j : Fin 384), j.val = 128 + k.val → b k = f j)
    (hc : ∀ (k : Fin 128) (j : Fin 384), j.val = 256 + k.val → c k = f j) :
    ∑ j : Fin 384, f j = (∑ k : Fin 128, a k) + (∑ k : Fin 128, b k) + ∑ k : Fin 128, c k := by
  have e := sum_fin_mul (M := M) 3 128 f
  refine e.trans ?_
  rw [Fin.sum_univ_three]
  refine congrArg₂ (· + ·) (congrArg₂ (· + ·) ?_ ?_) ?_
  · refine Fintype.sum_congr _ _ fun k => (ha k _ ?_).symm
    show k.val + 128 * 0 = k.val
    omega
  · refine Fintype.sum_congr _ _ fun k => (hb k _ ?_).symm
    show k.val + 128 * 1 = 128 + k.val
    omega
  · refine Fintype.sum_congr _ _ fun k => (hc k _ ?_).symm
    show k.val + 128 * 2 = 256 + k.val
    omega

theorem lt_384_0 (k : Fin 128) : k.val < 384 := by have := k.isLt; omega
theorem lt_384_1 (k : Fin 128) : 128 + k.val < 384 := by have := k.isLt; omega
theorem lt_384_2 (k : Fin 128) : 256 + k.val < 384 := by have := k.isLt; omega

/-- The literal form. -/
theorem sum_384 (f : Fin 384 → M) :
    ∑ j : Fin 384, f j = (∑ k : Fin 128, f ⟨k.val, lt_384_0 k⟩) + (∑ k : Fin 128, f ⟨128 + k.val, lt_384_1 k⟩)
      + ∑ k : Fin 128, f ⟨256 + k.val, lt_384_2 k⟩ :=
  sum_384_of f _ _ _ (fun _ _ h => congrArg f (Fin.ext h.symm)) (fun _ _ h => congrArg f (Fin.ext h.symm))
    (fun _ _ h => congrArg f (Fin.ext h.symm))

end Cert.LibMoments
-- ==== Proof.Spec.lean ====
/-
  The common value of the two programs. A weight matrix W of 4096 rows and 4096 columns is stored as integers q with,
  for every row k and every group of 128 consecutive columns, a zero point and a scale, and with one factor per row
  (mu2) and one per column (mu1):

      W(k, n) = (((q(k, n) - zero(k, n / 128)) * scale(k, n / 128)) * mu2(k)) * mu1(n).

  The result is the linear map x ↦ x · Wᵀ + bias on the last axis of x : [4, 256, 4096]:

      out(b, s, k) = (∑ n, x(b, s, n) * W(k, n)) + bias(k).

  Also here: the two laws of finite sums that join the two programs — a sum of 4096 terms taken as 4 tiles of 8 groups
  of 128 terms, and eight terms added one after the other onto an accumulator. Both hold in any additive commutative
  monoid, so on the extended reals they need no finiteness.
-/
import Idealize.ShloMosaic.PureOps.Ideal
import Idealize.ShloMosaic.Lib.ValueIdx
import proofs.«165393_j64330020159905_1_alg».proof.Proof.LibMomentsSums

noncomputable section

namespace Cert.Spec

open Idealize.ShloMosaic Idealize.ShloMosaic.ValueIdx
open scoped BigOperators

/-- The group of 128 columns that column n lies in. -/
def grp (n : Fin 4096) : Fin 32 := ⟨n.val / 128, by have := n.isLt; omega⟩

/-- The dequantised weight at row k, column n. -/
def weight (q : (⟨2, ![4096, 4096]⟩ : Shape).Idx → Elt Ideal .i32)
    (sc zr : (⟨3, ![4096, 32, 1]⟩ : Shape).Idx → EReal) (mu1 mu2 : (⟨1, ![4096]⟩ : Shape).Idx → EReal)
    (k n : Fin 4096) : EReal :=
  (((FloatOps.sitofp (F := Ideal) .f32 (q (ix2 k n)) - zr (ix3 k (grp n) 0)) * sc (ix3 k (grp n) 0)) * mu2 (ix1 k))
    * mu1 (ix1 n)

/-- The linear layer: out(b, s, k) = (∑ n, x(b, s, n) * W(k, n)) + bias(k). -/
def linear (x : (⟨3, ![4, 256, 4096]⟩ : Shape).Idx → EReal) (q : (⟨2, ![4096, 4096]⟩ : Shape).Idx → Elt Ideal .i32)
    (sc zr : (⟨3, ![4096, 32, 1]⟩ : Shape).Idx → EReal) (mu1 mu2 bias : (⟨1, ![4096]⟩ : Shape).Idx → EReal) :
    (⟨3, ![4, 256, 4096]⟩ : Shape).Idx → EReal :=
  fun i => (∑ n : Fin 4096, x (ix3 (i 0) (i 1) n) * weight q sc zr mu1 mu2 (i 2) n) + bias (ix1 (i 2))

variable {M : Type*} [AddCommMonoid M]

/-- Eight terms added one after the other onto an accumulator: the accumulator plus their sum. -/
theorem fold_eight (a : M) (h : Fin 8 → M) :
    (((((((a + h 0) + h 1) + h 2) + h 3) + h 4) + h 5) + h 6) + h 7 = a + ∑ g, h g := by
  rw [Fin.sum_univ_eight]; simp only [add_assoc]

/-- Column c of group g of tile l is a column. -/
theorem col_lt (l : Fin 4) (g : Fin 8) (c : Fin 128) : 1024 * l.val + 128 * g.val + c.val < 4096 := by
  have := l.isLt; have := g.isLt; have := c.isLt; omega

/-- A sum over the 4096 columns, taken as 4 tiles of 8 groups of 128 columns. -/
theorem sum_tiles (f : Fin 4096 → M) :
    ∑ n, f n = ∑ l : Fin 4, ∑ g : Fin 8, ∑ c : Fin 128, f ⟨1024 * l.val + 128 * g.val + c.val, col_lt l g c⟩ := by
  refine (Cert.LibMoments.sum_fin_mul 4 1024 f).trans (Fintype.sum_congr _ _ fun l => ?_)
  refine (Cert.LibMoments.sum_fin_mul 8 128 fun i : Fin 1024 => f ⟨i.val + 1024 * l.val, Cert.LibMoments.idx_lt l i⟩).trans
    (Fintype.sum_congr _ _ fun g => Fintype.sum_congr _ _ fun c => congrArg f (Fin.ext ?_))
  show c.val + 128 * g.val + 1024 * l.val = 1024 * l.val + 128 * g.val + c.val
  omega

/-- Column c of group g of tile a is a column (a given as a natural number below 4). -/
theorem tcol_lt (a : ℕ) (ha : a < 4) (g : Fin 8) (c : Fin 128) : 1024 * a + 128 * g.val + c.val < 4096 := by
  have := g.isLt; have := c.isLt; omega

/-- One contraction tile's share of entry (p, k) of x · Wᵀ, for x listed as 1024 rows: the tile's 8 groups of 128 columns. -/
def tileOf (X : (⟨2, ![1024, 4096]⟩ : Shape).Idx → EReal) (q : (⟨2, ![4096, 4096]⟩ : Shape).Idx → Elt Ideal .i32)
    (sc zr : (⟨3, ![4096, 32, 1]⟩ : Shape).Idx → EReal) (mu1 mu2 : (⟨1, ![4096]⟩ : Shape).Idx → EReal)
    (p : Fin 1024) (k : Fin 4096) (a : ℕ) (ha : a < 4) : EReal :=
  ∑ g : Fin 8, ∑ c : Fin 128, X (ix2 p (⟨1024 * a + 128 * g.val + c.val, tcol_lt a ha g c⟩ : Fin 4096))
    * weight q sc zr mu1 mu2 k ⟨1024 * a + 128 * g.val + c.val, tcol_lt a ha g c⟩

/-- The tile's share depends on the row of W and on the tile only through their values. -/
theorem tileOf_congr (X : (⟨2, ![1024, 4096]⟩ : Shape).Idx → EReal) (q : (⟨2, ![4096, 4096]⟩ : Shape).Idx → Elt Ideal .i32)
    (sc zr : (⟨3, ![4096, 32, 1]⟩ : Shape).Idx → EReal) (mu1 mu2 : (⟨1, ![4096]⟩ : Shape).Idx → EReal)
    (p : Fin 1024) (k k' : Fin 4096) (a a' : ℕ) (ha : a < 4) (ha' : a' < 4) (hk : k = k') (haa : a = a') :
    tileOf X q sc zr mu1 mu2 p k a ha = tileOf X q sc zr mu1 mu2 p k' a' ha' := by
  subst hk; subst haa; rfl

/-- The four tiles, added one after the other from zero, are the whole contraction. -/
theorem tiles_total (X : (⟨2, ![1024, 4096]⟩ : Shape).Idx → EReal) (q : (⟨2, ![4096, 4096]⟩ : Shape).Idx → Elt Ideal .i32)
    (sc zr : (⟨3, ![4096, 32, 1]⟩ : Shape).Idx → EReal) (mu1 mu2 : (⟨1, ![4096]⟩ : Shape).Idx → EReal)
    (p : Fin 1024) (k : Fin 4096) :
    (((0 + tileOf X q sc zr mu1 mu2 p k 0 (by decide)) + tileOf X q sc zr mu1 mu2 p k 1 (by decide))
        + tileOf X q sc zr mu1 mu2 p k 2 (by decide)) + tileOf X q sc zr mu1 mu2 p k 3 (by decide)
      = ∑ n : Fin 4096, X (ix2 p n) * weight q sc zr mu1 mu2 k n := by
  rw [sum_tiles (fun n => X (ix2 p n) * weight q sc zr mu1 mu2 k n), Fin.sum_univ_four, zero_add]
  rfl

end Cert.Spec

end
-- ==== Proof.TileIdeal.lean ====
/-
  One grid point's update of the accumulator, read at an entry on the extended reals: the accumulator at (p, r) plus,
  for each of the tile's eight groups g, the sum over the group's 128 columns c of

      x(p, 128 g + c) * ((((q(r, 128 g + c) - zero(r, g)) * scale(r, g)) * mu2(r)) * mu1(128 g + c)).

  The kernel adds the eight group sums onto the accumulator one after the other; addition on the extended reals is
  associative, so that is the accumulator plus the sum of the eight.
-/
import proofs.«165393_j64330020159905_1_alg».proof.Proof.Pieces
import proofs.«165393_j64330020159905_1_alg».proof.Proof.BodyIdeal
import proofs.«165393_j64330020159905_1_alg».proof.Proof.Spec

noncomputable section

namespace Cert.KernelIdeal.Pieces

open Idealize.ShloMosaic Idealize.ShloMosaic.ValueIdx
open Cert.KernelIdeal Cert.KernelIdeal.Gen Cert.KernelIdeal.Body
open scoped BigOperators

theorem gcol_lt (g : ℕ) (hg : g < 8) (c : Fin 128) : 128 * g + c.val < 1024 := by have := c.isLt; omega

/-- Group g's sum at (p, r), over the tile's blocks. -/
def gsum (x0 : FVec Ideal S1024x1024 .f32) (x1 : Vec Ideal S512x1024 .i32) (sc zr : FVec Ideal S512x8x1 .f32)
    (m1 : FVec Ideal S1024 .f32) (m2 : FVec Ideal S512 .f32) (p : Fin 1024) (r : Fin 512) (g : ℕ) (hg : g < 8) : EReal :=
  ∑ c : Fin 128, x0 (ix2 p (⟨128 * g + c.val, gcol_lt g hg c⟩ : Fin 1024))
    * ((((FloatOps.sitofp (F := Ideal) .f32 (x1 (ix2 r (⟨128 * g + c.val, gcol_lt g hg c⟩ : Fin 1024)))
          - zr (ix3 r (⟨g, hg⟩ : Fin 8) (0 : Fin 1))) * sc (ix3 r (⟨g, hg⟩ : Fin 8) (0 : Fin 1))) * m2 (ix1 r))
        * m1 (ix1 (⟨128 * g + c.val, gcol_lt g hg c⟩ : Fin 1024)))

/-- Group g's product of the loaded columns, at (p, r). -/
theorem term_ld_apply (g : ℕ) (hg : g < 8) (o : ℕ) (ho : o = 128 * g) (h3 : S512x8x1.Slices ![0, g, 0] S512x1x1)
    (h1 : S1024.Slices ![o] S128)
    (inb1 : ∀ a, (![0, o] : Fin 2 → ℕ) a + S512x128.size a ≤ S512x1024.size a)
    (inb0 : ∀ a, (![0, o] : Fin 2 → ℕ) a + S1024x128.size a ≤ S1024x1024.size a)
    (x0 : FVec Ideal S1024x1024 .f32) (x1 : Vec Ideal S512x1024 .i32) (sc zr : FVec Ideal S512x8x1 .f32)
    (m1 : FVec Ideal S1024 .f32) (m2 : FVec Ideal S512 .f32) (p : Fin 1024) (r : Fin 512) :
    term (F := Ideal) ![0, g, 0] h3 ![o] h1 sc zr m1 m2
        (View.ld x1 (Rect.unit (s := S512x1024) ![0, o] S512x128.size inb1))
        (View.ld x0 (Rect.unit (s := S1024x1024) ![0, o] S1024x128.size inb0)) (ix2 p r)
      = gsum x0 x1 sc zr m1 m2 p r g hg := by
  subst ho
  rw [term_apply g hg h3 (128 * g) h1 (by omega)]
  unfold gsum
  refine Finset.sum_congr rfl fun c _ => ?_
  rw [Cert.Reads.ldCols_apply (Val := Elt Ideal) (e := .i32) (128 * g) x1 inb1 r c (gcol_lt g hg c), Cert.Reads.ldCols_apply (Val := Elt Ideal) (e := .f32) (128 * g) x0 inb0 p c (gcol_lt g hg c)]

/-- The accumulator after a point, at (p, r): what it held plus the eight group sums. -/
theorem newAcc_apply (x0 : FVec Ideal S1024x1024 .f32) (x1 : Vec Ideal S512x1024 .i32) (sc zr : FVec Ideal S512x8x1 .f32)
    (m1 : FVec Ideal S1024 .f32) (m2 : FVec Ideal S512 .f32) (a : FVec Ideal S1024x512 .f32) (p : Fin 1024) (r : Fin 512) :
    newAcc (F := Ideal) x0 x1 sc zr m1 m2 a (ix2 p r) = a (ix2 p r) + ∑ g : Fin 8, gsum x0 x1 sc zr m1 m2 p r g.val g.isLt := by
  rw [← Cert.Spec.fold_eight]
  unfold newAcc acc8
  rw [shapeCast_self]
  simp only [addf_apply]
  rw [term_ld_apply 0 (by decide) 0 rfl, term_ld_apply 1 (by decide) 128 rfl, term_ld_apply 2 (by decide) 256 rfl,
    term_ld_apply 3 (by decide) 384 rfl, term_ld_apply 4 (by decide) 512 rfl, term_ld_apply 5 (by decide) 640 rfl,
    term_ld_apply 6 (by decide) 768 rfl, term_ld_apply 7 (by decide) 896 rfl]
  rfl

/-- The zeroed accumulator is zero everywhere. -/
theorem zeroAcc_apply (i : S1024x512.Idx) : zeroAcc (F := Ideal) i = 0 := by
  unfold zeroAcc k0_pay3
  rw [shapeCast_self]
  exact Ideal.ofBits_zero_f32

/-- The output block at (p, r): the accumulator there plus the bias of column r. -/
theorem withBias_apply (a : FVec Ideal S1024x512 .f32) (b : FVec Ideal S512 .f32) (p : Fin 1024) (r : Fin 512) :
    withBias (F := Ideal) a b (ix2 p r) = a (ix2 p r) + b (ix1 r) := by
  unfold withBias k0_pay2
  rw [addf_apply, broadcastTo_1b_ab_apply, shapeCast_a_1a_apply]

end Cert.KernelIdeal.Pieces

end
-- ==== Proof.AccumIdeal.lean ====
/-
  The output block of column block j, on the extended reals. With X the input listed as 1024 rows and W the
  dequantised weights, the block written at point 4 j + 3 holds at (p, r)

      (∑ n < 4096, X(p, n) * W(512 j + r, n)) + bias(512 j + r):

  each of the block's four points adds its tile's eight group sums onto the accumulator, the first onto zero, and
  the four tiles of 8 groups of 128 columns are all 4096 columns.
-/
import proofs.«165393_j64330020159905_1_alg».proof.Proof.Accum
import proofs.«165393_j64330020159905_1_alg».proof.Proof.TileIdeal
import proofs.«165393_j64330020159905_1_alg».proof.Proof.Spec

noncomputable section

namespace Cert.KernelIdeal.Accum

open Idealize.ShloMosaic Idealize.ShloMosaic.TcCoe Idealize.ShloMosaic.ValueIdx Idealize.SL.Sem
open Cert.KernelIdeal Cert.KernelIdeal.Gen Cert.KernelIdeal.Pieces Cert.KernelIdeal.Blocks Cert.Spec
open scoped BigOperators

variable (m : (ℓ : Loc nD τ sig) → Buf (Elt Ideal) ℓ)

/-- The arrays as the kernel finds them, at their literal shapes. -/
def Xr (c : Dev nD) : FVec Ideal S1024x4096 .f32 := V m c main_v0
def Qa (c : Dev nD) : Vec Ideal S4096x4096 .i32 := V m c main_arg1
def SCa (c : Dev nD) : FVec Ideal S4096x32x1 .f32 := V m c main_arg2
def ZRa (c : Dev nD) : FVec Ideal S4096x32x1 .f32 := V m c main_arg3
def M1a (c : Dev nD) : FVec Ideal S4096 .f32 := V m c main_arg4
def M2a (c : Dev nD) : FVec Ideal S4096 .f32 := V m c main_arg5
def Ba (c : Dev nD) : FVec Ideal S4096 .f32 := V m c main_arg6

theorem N32 (t : Fin cfg0.N) : t.val < 32 := lt_of_lt_of_eq t.isLt (show cfg0.N = 32 from N_0)

/-- Row r of point t's weight block is a row of W. -/
theorem wrow_lt (t : Fin cfg0.N) (r : Fin 512) : 512 * (t.val / 4) + r.val < 4096 := by
  have := r.isLt; have := N32 t; omega

theorem xblk_apply (c : Dev nD) (t : Fin cfg0.N) (p : Fin 1024) (cc : Fin 1024) :
    xblk m c t (ix2 p cc) = Xr m c (ix2 p (⟨1024 * (t.val % 4) + cc.val, by have := cc.isLt; omega⟩ : Fin 4096)) :=
  blk0_apply m c t p cc
theorem qblk_apply (c : Dev nD) (t : Fin cfg0.N) (r : Fin 512) (cc : Fin 1024) :
    qblk m c t (ix2 r cc) = Qa m c (ix2 (⟨512 * (t.val / 4) + r.val, wrow_lt t r⟩ : Fin 4096)
      (⟨1024 * (t.val % 4) + cc.val, by have := cc.isLt; omega⟩ : Fin 4096)) :=
  blk1_apply m c t r cc
theorem scblk_apply (c : Dev nD) (t : Fin cfg0.N) (r : Fin 512) (g : Fin 8) (u : Fin 1) :
    scblk m c t (ix3 r g u) = SCa m c (ix3 (⟨512 * (t.val / 4) + r.val, wrow_lt t r⟩ : Fin 4096)
      (⟨8 * (t.val % 4) + g.val, by have := g.isLt; omega⟩ : Fin 32) (0 : Fin 1)) :=
  blk2_apply m c t r g u
theorem zrblk_apply (c : Dev nD) (t : Fin cfg0.N) (r : Fin 512) (g : Fin 8) (u : Fin 1) :
    zrblk m c t (ix3 r g u) = ZRa m c (ix3 (⟨512 * (t.val / 4) + r.val, wrow_lt t r⟩ : Fin 4096)
      (⟨8 * (t.val % 4) + g.val, by have := g.isLt; omega⟩ : Fin 32) (0 : Fin 1)) :=
  blk3_apply m c t r g u
theorem m1blk_apply (c : Dev nD) (t : Fin cfg0.N) (cc : Fin 1024) :
    m1blk m c t (ix1 cc) = M1a m c (ix1 (⟨1024 * (t.val % 4) + cc.val, by have := cc.isLt; omega⟩ : Fin 4096)) :=
  blk4_apply m c t cc
theorem m2blk_apply (c : Dev nD) (t : Fin cfg0.N) (r : Fin 512) :
    m2blk m c t (ix1 r) = M2a m c (ix1 (⟨512 * (t.val / 4) + r.val, wrow_lt t r⟩ : Fin 4096)) :=
  blk5_apply m c t r
theorem bblk_apply (c : Dev nD) (t : Fin cfg0.N) (r : Fin 512) :
    bblk m c t (ix1 r) = Ba m c (ix1 (⟨512 * (t.val / 4) + r.val, wrow_lt t r⟩ : Fin 4096)) :=
  blk6_apply m c t r

/-- The eight group sums of point t are tile t % 4's share of row 512 (t / 4) + r of W. -/
theorem point_tile (c : Dev nD) (t : Fin cfg0.N) (p : Fin 1024) (r : Fin 512) :
    ∑ g : Fin 8, gsum (xblk m c t) (qblk m c t) (scblk m c t) (zrblk m c t) (m1blk m c t) (m2blk m c t) p r g.val g.isLt
      = tileOf (Xr m c) (Qa m c) (SCa m c) (ZRa m c) (M1a m c) (M2a m c) p ⟨512 * (t.val / 4) + r.val, wrow_lt t r⟩
          (t.val % 4) (Nat.mod_lt _ (by decide)) := by
  unfold tileOf
  refine Finset.sum_congr rfl fun g _ => ?_
  unfold gsum
  refine Finset.sum_congr rfl fun cc _ => ?_
  rw [xblk_apply, qblk_apply, zrblk_apply, scblk_apply, m2blk_apply, m1blk_apply]
  unfold weight
  have hg := g.isLt
  have hc := cc.isLt
  have e1 : (⟨1024 * (t.val % 4) + (128 * g.val + cc.val), by omega⟩ : Fin 4096)
      = ⟨1024 * (t.val % 4) + 128 * g.val + cc.val, tcol_lt (t.val % 4) (Nat.mod_lt _ (by decide)) g cc⟩ := Fin.ext (by show 1024 * (t.val % 4) + (128 * g.val + cc.val) = 1024 * (t.val % 4) + 128 * g.val + cc.val; omega)
  have e3 : (⟨8 * (t.val % 4) + g.val, by omega⟩ : Fin 32)
      = grp ⟨1024 * (t.val % 4) + 128 * g.val + cc.val, tcol_lt (t.val % 4) (Nat.mod_lt _ (by decide)) g cc⟩ :=
    Fin.ext (by unfold grp; show 8 * (t.val % 4) + g.val = (1024 * (t.val % 4) + 128 * g.val + cc.val) / 128; omega)
  rw [e1, e3]

/-- The output block written at the last point of a column block, at (p, r). -/
theorem out_value (c : Dev nD) (t : Fin cfg0.N) (h3 : t.val % 4 = 3) (p : Fin 1024) (r : Fin 512) :
    (outsAt0 m c t.val t.isLt).1 (ix2 p r)
      = (∑ n : Fin 4096, Xr m c (ix2 p n)
            * weight (Qa m c) (SCa m c) (ZRa m c) (M1a m c) (M2a m c) ⟨512 * (t.val / 4) + r.val, wrow_lt t r⟩ n)
          + Ba m c (ix1 (⟨512 * (t.val / 4) + r.val, wrow_lt t r⟩ : Fin 4096)) := by
  have hN := N32 t
  -- the block's four points
  have l1 : t.val - 1 < cfg0.N := pred_lt t
  have l2 : t.val - 2 < cfg0.N := lt_of_le_of_lt (Nat.sub_le _ _) t.isLt
  have l3 : t.val - 3 < cfg0.N := lt_of_le_of_lt (Nat.sub_le _ _) t.isLt
  have s1 : (outsAt0 m c (t.val - 1) (pred_lt t)).2
      = after m c ⟨t.val - 1, l1⟩ (outsAt0 m c (t.val - 1 - 1) (pred_lt ⟨t.val - 1, l1⟩)).2 :=
    scr_mid m c ⟨t.val - 1, l1⟩ (by show ¬(t.val - 1) % 4 = 0; omega) (by show ¬(t.val - 1) % 4 = 3; omega)
  have s2 : (outsAt0 m c (t.val - 1 - 1) (pred_lt ⟨t.val - 1, l1⟩)).2
      = after m c ⟨t.val - 1 - 1, pred_lt ⟨t.val - 1, l1⟩⟩
          (outsAt0 m c (t.val - 1 - 1 - 1) (pred_lt ⟨t.val - 1 - 1, pred_lt ⟨t.val - 1, l1⟩⟩)).2 :=
    scr_mid m c ⟨t.val - 1 - 1, pred_lt ⟨t.val - 1, l1⟩⟩ (by show ¬(t.val - 1 - 1) % 4 = 0; omega)
      (by show ¬(t.val - 1 - 1) % 4 = 3; omega)
  have s3 : (outsAt0 m c (t.val - 1 - 1 - 1) (pred_lt ⟨t.val - 1 - 1, pred_lt ⟨t.val - 1, l1⟩⟩)).2
      = after m c ⟨t.val - 1 - 1 - 1, pred_lt ⟨t.val - 1 - 1, pred_lt ⟨t.val - 1, l1⟩⟩⟩ zeroAcc :=
    scr_first m c ⟨t.val - 1 - 1 - 1, pred_lt ⟨t.val - 1 - 1, pred_lt ⟨t.val - 1, l1⟩⟩⟩ (by show (t.val - 1 - 1 - 1) % 4 = 0; omega)
  rw [out_last m c t h3, s1, s2, s3, withBias_apply, bblk_apply]
  unfold after
  rw [newAcc_apply, newAcc_apply, newAcc_apply, newAcc_apply, zeroAcc_apply,
    point_tile, point_tile, point_tile, point_tile,
    ← tiles_total (Xr m c) (Qa m c) (SCa m c) (ZRa m c) (M1a m c) (M2a m c) p ⟨512 * (t.val / 4) + r.val, wrow_lt t r⟩]
  have ek : ∀ k : Fin 4096, k.val = 512 * (t.val / 4) + r.val → k = ⟨512 * (t.val / 4) + r.val, wrow_lt t r⟩ :=
    fun k h => Fin.ext h
  refine congrArg₂ (· + ·) (congrArg₂ (· + ·) (congrArg₂ (· + ·) (congrArg₂ (· + ·) (congrArg₂ (· + ·) rfl ?_) ?_) ?_) ?_) rfl
  · exact tileOf_congr _ _ _ _ _ _ p _ _ _ _ _ _ (ek _ (by show 512 * ((t.val - 1 - 1 - 1) / 4) + r.val = 512 * (t.val / 4) + r.val; omega)) (by show (t.val - 1 - 1 - 1) % 4 = 0; omega)
  · exact tileOf_congr _ _ _ _ _ _ p _ _ _ _ _ _ (ek _ (by show 512 * ((t.val - 1 - 1) / 4) + r.val = 512 * (t.val / 4) + r.val; omega)) (by show (t.val - 1 - 1) % 4 = 1; omega)
  · exact tileOf_congr _ _ _ _ _ _ p _ _ _ _ _ _ (ek _ (by show 512 * ((t.val - 1) / 4) + r.val = 512 * (t.val / 4) + r.val; omega)) (by show (t.val - 1) % 4 = 2; omega)
  · exact tileOf_congr _ _ _ _ _ _ p _ _ _ _ _ _ rfl h3

end Cert.KernelIdeal.Accum

end
-- ==== Proof.Result.lean ====
/-
  The kernel's result as one function of the arguments. The region leaves in the [1024, 4096] array the product
  rows x · Wᵀ + bias — the output block of column block j, written at point 4 j + 3, is its columns 512 j … 512 j + 511,
  and the eight blocks tile the array —; the host lists the rows as [4, 256, 4096], as it listed x as 1024 rows before
  the region. So entry (b, s, k) of the result is (∑ n, x(b, s, n) * W(k, n)) + bias(k).
-/
import proofs.«165393_j64330020159905_1_alg».proof.Proof.AccumIdeal
import Idealize.ShloMosaic.Lib.Pipeline.Value
import Idealize.ShloMosaic.Lib.StableHlo.Run

noncomputable section

namespace Cert.KernelIdeal.Result

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Blocks Cert.KernelIdeal.Accum Cert.Spec
open scoped BigOperators

variable (m : (ℓ : Loc nD τ sig) → Buf (Elt Ideal) ℓ) (ρ : Dev nD → PrngReg)

/-- What the region leaves in its [1024, 4096] array, over the arrays as it finds them. -/
def rows (c : Dev nD) : Vec Ideal S1024x4096 .f32 := fun i =>
  (∑ n : Fin 4096, Xr m c (ix2 (i 0) n) * weight (Qa m c) (SCa m c) (ZRa m c) (M1a m c) (M2a m c) (i 1) n)
    + Ba m c (ix1 (i 1))

/-- The block written at the last point of a column block, entry by entry. -/
theorem out_entry (c : Dev nD) (t : Fin cfg0.N) (h3 : t.val % 4 = 3) (y : S1024x512.Idx) :
    (outsAt0 m c t.val t.isLt).1 y
      = rows m c (ix2 (y 0) (⟨512 * (t.val / 4) + (y 1).val, wrow_lt t (y 1)⟩ : Fin 4096)) := by
  exact (congrArg (outsAt0 m c t.val t.isLt).1 (eq_ix2 y)).trans (out_value m c t h3 (y 0) (y 1))

/-- What point t writes back is block t of the rows. -/
theorem flushed_eq (c : Dev nD) (t : Fin cfg0.N) (hf : (cfg0.win 7).flush t = true) :
    (dats m 0 c).flushed 7 t = ((cfg0.win 7).blk t).view.read (Elt Ideal) (rows m c) := by
  have h3 : t.val % 4 = 3 := (flush0_7 t).mp hf
  show (cfg0.win 7).cut (grid0.coords t) ((dats m 0 c).after 7 t) = _
  rw [after0_7]
  funext y
  refine (out_entry m c t h3 y).trans ?_
  show rows m c _ = rows m c (((cfg0.win 7).blk t).view.emb y)
  congr 1
  funext a
  apply Fin.ext
  match a with
  | ⟨0, _⟩ => show (y 0).val = win0_7.index t (0 : Fin 2) * 1024 + 1 * (y 0).val; rw [(idx_facts t).2.2.2.2.2.2.2.2.2.2.2.2.2.1]; omega
  | ⟨1, _⟩ => show 512 * (t.val / 4) + (y 1).val = win0_7.index t (1 : Fin 2) * 512 + 1 * (y 1).val; rw [(idx_facts t).2.2.2.2.2.2.2.2.2.2.2.2.2.2]; omega

/-- An entry of the array is in point t's block iff each coordinate is in the block's range. -/
theorem mem_blk (t : Fin cfg0.N) (i : S1024x4096.Idx) :
    i ∈ ((cfg0.win 7).blk t).view.set ↔ ∀ a : Fin 2, win0_7.index t a * S1024x512.size a ≤ (i a).val
      ∧ (i a).val < win0_7.index t a * S1024x512.size a + S1024x512.size a := by
  show i ∈ ((View.whole main_v1).slice (win0_7.rect t)).set ↔ _
  rw [View.set_slice_whole, Rect.mem_set_unit]
  exact Iff.rfl

/-- Column k lies in the block written at point 4 (k / 512) + 3. -/
theorem cover (i : S1024x4096.Idx) :
    ∃ t : Fin cfg0.N, (cfg0.win 7).flush t = true ∧ i ∈ ((cfg0.win 7).blk t).view.set := by
  have hi0 : (i 0).val < 1024 := (i 0).isLt
  have hi1 : (i 1).val < 4096 := (i 1).isLt
  have hN : cfg0.N = 32 := N_0
  have hlt : 4 * ((i 1).val / 512) + 3 < cfg0.N := by rw [hN]; omega
  refine ⟨⟨4 * ((i 1).val / 512) + 3, hlt⟩, (flush0_7 _).mpr (by show (4 * ((i 1).val / 512) + 3) % 4 = 3; omega), ?_⟩
  rw [mem_blk]
  have e0 := (idx_facts ⟨4 * ((i 1).val / 512) + 3, hlt⟩).2.2.2.2.2.2.2.2.2.2.2.2.2.1
  have e1 := (idx_facts ⟨4 * ((i 1).val / 512) + 3, hlt⟩).2.2.2.2.2.2.2.2.2.2.2.2.2.2
  intro a
  match a with
  | ⟨0, _⟩ =>
    show win0_7.index ⟨4 * ((i 1).val / 512) + 3, hlt⟩ (0 : Fin 2) * 1024 ≤ (i 0).val
      ∧ (i 0).val < win0_7.index ⟨4 * ((i 1).val / 512) + 3, hlt⟩ (0 : Fin 2) * 1024 + 1024
    rw [e0]; omega
  | ⟨1, _⟩ =>
    show win0_7.index ⟨4 * ((i 1).val / 512) + 3, hlt⟩ (1 : Fin 2) * 512 ≤ (i 1).val
      ∧ (i 1).val < win0_7.index ⟨4 * ((i 1).val / 512) + 3, hlt⟩ (1 : Fin 2) * 512 + 512
    rw [e1]
    show (4 * ((i 1).val / 512) + 3) / 4 * 512 ≤ (i 1).val ∧ (i 1).val < (4 * ((i 1).val / 512) + 3) / 4 * 512 + 512
    omega

/-- The region's array after the run. -/
theorem final (c : Dev nD) : (dats m 0 c).arrAt 7 cfg0.N = rows m c :=
  (dats m 0 c).arrAt_eq_of_cover 7 (rows m c) (flushed_eq m c) (cover)

/-- The host line before the region lists x as 1024 rows. -/
theorem Xr_eq (c : Dev nD) :
    Xr m c = shapeCast S1024x4096 (m ((c : Thread nD τ).loc main_arg0)) shapeCasts_S4x256x4096_S1024x4096 := by
  unfold Xr
  show StableHlo.after hostOps0 (fun b => m (c, b)) (Proc.devRef .tc main_v0) = _
  after_results
  rfl

/-- The host line after the region lists the rows as [4, 256, 4096]. -/
theorem tail_eq (c : Dev nD) :
    Pipeline.afterTail₀ cfgs (dats m) 0 (V0 m) [hostOps1] c main_v2
      = shapeCast S4x256x4096 (rows m c) shapeCasts_S1024x4096_S4x256x4096 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.tc.devRef main_v1)
      = rows m c := (Pipeline.withArrays_arr spec0 launch0.win.arr_inj c _ _ 7).trans (final m c)
  rw [hw]
  rfl

/-- The kernel's result array: the rows listed as [4, 256, 4096]. -/
def result (c : Dev nD) : Buf (Elt Ideal) ((c : Thread nD τ).loc main_v2) :=
  shapeCast S4x256x4096 (rows m c) shapeCasts_S1024x4096_S4x256x4096

theorem row_lt (b : Fin 4) (s : Fin 256) : 256 * b.val + s.val < 1024 := by have := b.isLt; have := s.isLt; omega

/-- Row 256 b + s of x listed as 1024 rows is row (b, s) of x: the rows' entry (256 b + s, k) is the linear layer's (b, s, k). -/
theorem rows_linear (X : FVec Ideal S4x256x4096 .f32) (q : Vec Ideal S4096x4096 .i32) (sc zr : FVec Ideal S4096x32x1 .f32)
    (m1 m2 bias : FVec Ideal S4096 .f32) (X' : FVec Ideal S1024x4096 .f32)
    (hX : X' = shapeCast S1024x4096 X shapeCasts_S4x256x4096_S1024x4096) (b : Fin 4) (s : Fin 256) (k : Fin 4096) :
    (∑ n : Fin 4096, X' (ix2 (⟨256 * b.val + s.val, row_lt b s⟩ : Fin 1024) n) * weight q sc zr m1 m2 k n) + bias (ix1 k)
      = linear X q sc zr m1 m2 bias (ix3 b s k) := by
  subst hX
  show _ = (∑ n : Fin 4096, X (ix3 b s n) * weight q sc zr m1 m2 k n) + bias (ix1 k)
  refine congrArg (· + bias (ix1 k)) (Finset.sum_congr rfl fun n _ => congrArg (· * weight q sc zr m1 m2 k n) ?_)
  exact shapeCast_apply X shapeCasts_S4x256x4096_S1024x4096 (ix2 (⟨256 * b.val + s.val, row_lt b s⟩ : Fin 1024) n) (ix3 b s n) (by
    rw [Shape.rowMajor_val_two, Shape.rowMajor_val_three]
    show (b.val * 256 + s.val) * 4096 + n.val = (256 * b.val + s.val) * 4096 + n.val
    omega)

/-- Entry by entry the result is the linear layer of the arguments. -/
theorem result_eq (c : Dev nD) :
    result m c = linear (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [← V_main_arg1 m c, ← V_main_arg2 m c, ← V_main_arg3 m c, ← V_main_arg4 m c, ← V_main_arg5 m c, ← V_main_arg6 m c]
  funext i
  obtain ⟨b, s, k, rfl⟩ : ∃ (b : Fin 4) (s : Fin 256) (k : Fin 4096), i = ix3 b s k := ⟨i 0, i 1, i 2, eq_ix3 i⟩
  unfold result
  rw [shapeCast_apply (rows m c) shapeCasts_S1024x4096_S4x256x4096 (ix3 b s k) (ix2 (⟨256 * b.val + s.val, row_lt b s⟩ : Fin 1024) k) (by
    rw [Shape.rowMajor_val_two, Shape.rowMajor_val_three]
    show (256 * b.val + s.val) * 4096 + k.val = (b.val * 256 + s.val) * 4096 + k.val
    omega)]
  exact rows_linear (m ((c : Thread nD τ).loc main_arg0)) (Qa m c) (SCa m c) (ZRa m c) (M1a m c) (M2a m c) (Ba m c) (Xr m c) (Xr_eq m c) b s k

/-- The frame run, read: the result array at the linear layer's value, the arguments unchanged. -/
theorem run : θ_run defs (onTc (τ := τ) (main (F := Ideal))) ⟨m, fun _ => 0, ρ⟩ fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨
      ((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c)))⟩)
    (run_main m ρ)

end Cert.KernelIdeal.Result

end
-- ==== Proof.RefValue.lean ====
/-
  The reference computes the linear layer of the specification. Its weight matrix is built by listing the integer
  weights as [4096, 32, 128], subtracting the zero points and multiplying by the scales of each (row, group), listing
  the result as [4096, 4096] again and multiplying by the row and the column factors; entry (k, n) of the [4096, 32, 128]
  listing is (k, n / 128, n % 128), so the group of column n is n / 128. The contraction and the bias are read by the
  generated index-by-index lemmas.
-/
import proofs.«165393_j64330020159905_1_alg».proof.Proof.Gen.ReferenceIdeal.Read
import proofs.«165393_j64330020159905_1_alg».proof.Proof.Spec

noncomputable section

namespace Cert.ReferenceIdeal.RefValue

open Idealize.ShloMosaic Idealize.ShloMosaic.ValueIdx
open Cert.ReferenceIdeal Cert.ReferenceIdeal.Gen Cert.ReferenceIdeal.Read Cert.Spec
open scoped BigOperators

/-- Entry (k, n) of the reference's weight matrix is the specification's weight. -/
theorem weight_eq (x1 : (⟨S4096x4096, .i32⟩ : BufTy).Contents (Elt Ideal)) (x2 x3 : (⟨S4096x32x1, .f32⟩ : BufTy).Contents (Elt Ideal))
    (x4 x5 : (⟨S4096, .f32⟩ : BufTy).Contents (Elt Ideal)) (k n : Fin 4096) :
    val_main_v12 (F := Ideal) x1 x2 x3 x4 x5 (ix2 k n) = weight x1 x2 x3 x4 x5 k n := by
  have hk := k.isLt
  have hn := n.isLt
  rw [val_main_v12_apply, val_main_v9_apply, val_main_v6_apply, val_main_v5_apply, val_main_v3_apply, val_main_v1_apply,
    val_main_v0_apply, val_main_v2_apply, val_main_v4_apply, val_main_v8_apply, val_main_v7_apply, val_main_v11_apply,
    val_main_v10_apply]
  unfold weight
  simp only [Ideal.mulf_def, Ideal.subf_def]
  have e1 : idx_main_v1 (idx_main_v6 (ix2 k n)) = ix2 k n := funext fun a => Fin.ext (by
    match a with
    | ⟨0, _⟩ =>
      show (((k.val * 4096 + n.val) / 4096 * 32 + (k.val * 4096 + n.val) / 128 % 32) * 128 + (k.val * 4096 + n.val) % 128) / 4096 = k.val
      omega
    | ⟨1, _⟩ =>
      show (((k.val * 4096 + n.val) / 4096 * 32 + (k.val * 4096 + n.val) / 128 % 32) * 128 + (k.val * 4096 + n.val) % 128) % 4096 = n.val
      omega)
  have e2 : idx_main_v2 (idx_main_v6 (ix2 k n)) = ix3 k (grp n) (0 : Fin 1) := funext fun a => Fin.ext (by
    match a with
    | ⟨0, _⟩ => show (k.val * 4096 + n.val) / 4096 = k.val; omega
    | ⟨1, _⟩ => show (k.val * 4096 + n.val) / 128 % 32 = n.val / 128; omega
    | ⟨2, _⟩ => rfl)
  have e4 : idx_main_v4 (idx_main_v6 (ix2 k n)) = ix3 k (grp n) (0 : Fin 1) := funext fun a => Fin.ext (by
    match a with
    | ⟨0, _⟩ => show (k.val * 4096 + n.val) / 4096 = k.val; omega
    | ⟨1, _⟩ => show (k.val * 4096 + n.val) / 128 % 32 = n.val / 128; omega
    | ⟨2, _⟩ => rfl)
  have e7 : idx_main_v7 (idx_main_v8 (ix2 k n)) = ix1 k := funext fun a => Fin.ext (by
    match a with
    | ⟨0, _⟩ => rfl)
  have e10 : idx_main_v10 (idx_main_v11 (ix2 k n)) = ix1 n := funext fun a => Fin.ext (by
    match a with
    | ⟨0, _⟩ => rfl)
  rw [e1, e2, e4, e7, e10]

/-- The reference's result is the linear layer of its arguments. -/
theorem reference_eq (x0 : (⟨S4x256x4096, .f32⟩ : BufTy).Contents (Elt Ideal)) (x1 : (⟨S4096x4096, .i32⟩ : BufTy).Contents (Elt Ideal))
    (x2 x3 : (⟨S4096x32x1, .f32⟩ : BufTy).Contents (Elt Ideal)) (x4 x5 x6 : (⟨S4096, .f32⟩ : BufTy).Contents (Elt Ideal)) :
    val_main_v16 (F := Ideal) x0 x1 x2 x3 x4 x5 x6 = linear x0 x1 x2 x3 x4 x5 x6 := by
  funext i
  obtain ⟨b, s, k, rfl⟩ : ∃ (b : Fin 4) (s : Fin 256) (k : Fin 4096), i = ix3 b s k := ⟨i 0, i 1, i 2, eq_ix3 i⟩
  rw [val_main_v16_apply, val_main_v13_apply, val_main_v15_apply, val_main_v14_apply]
  unfold linear
  rw [Ideal.addf_def]
  have eb : idx_main_v14 (idx_main_v15 (ix3 b s k)) = ix1 k := funext fun a => Fin.ext (by
    match a with
    | ⟨0, _⟩ => rfl)
  rw [eb]
  refine congrArg (· + x6 (ix1 k)) (Finset.sum_congr rfl fun n _ => ?_)
  have el : lidx_main_v13 (ix3 b s k) n = ix3 b s n := funext fun a => Fin.ext (by
    match a with
    | ⟨0, _⟩ => rfl
    | ⟨1, _⟩ => rfl
    | ⟨2, _⟩ => rfl)
  have er : ridx_main_v13 (ix3 b s k) n = ix2 k n := funext fun a => Fin.ext (by
    match a with
    | ⟨0, _⟩ => rfl
    | ⟨1, _⟩ => rfl)
  rw [el, er, weight_eq]

end Cert.ReferenceIdeal.RefValue

end
-- ==== Proof.lean ====
/-
  A linear layer with group-wise quantised weights: out = x · Wᵀ + bias, where the weight at row k and column n is
  (((q(k, n) - zero(k, n / 128)) * scale(k, n / 128)) * mu2(k)) * mu1(n).

  The kernel computes the product tile by tile: for each block of 512 output columns it runs through four tiles of
  1024 contracted columns, each tile as eight groups of 128 columns whose dequantised weights are multiplied with the
  matching columns of x and added onto an accumulator; the last tile adds the bias and writes the block. The reference
  forms W whole and contracts all 4096 columns at once. On the extended reals both are the same sum of the same
  4096 products per output entry, grouped differently — addition there is associative and commutative without any
  finiteness assumption, so the precondition is never opened — followed by the same bias addition.

  Proof/Spec.lean states the common value and the two summation laws; Proof/RefValue.lean shows the reference computes
  it; Proof/Body.lean … Proof/Result.lean show the kernel does.
-/
import proofs.«165393_j64330020159905_1_alg».proof.Defs
import proofs.«165393_j64330020159905_1_alg».proof.Proof.Gen.Kernel
import proofs.«165393_j64330020159905_1_alg».proof.Proof.Gen.Kernel.Frame
import proofs.«165393_j64330020159905_1_alg».proof.Proof.Gen.KernelIdeal
import proofs.«165393_j64330020159905_1_alg».proof.Proof.Gen.KernelIdeal.Frame
import proofs.«165393_j64330020159905_1_alg».proof.Proof.Gen.ReferenceIdeal
import proofs.«165393_j64330020159905_1_alg».proof.Proof.Gen.ReferenceIdeal.Run
import proofs.«165393_j64330020159905_1_alg».proof.Proof.Gen.ReferenceIdeal.Read
import proofs.«165393_j64330020159905_1_alg».proof.Proof.Gen.Pre_finite_inputs
import proofs.«165393_j64330020159905_1_alg».proof.Proof.Result
import proofs.«165393_j64330020159905_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- On the extended reals the kernel's result array and the reference's both end at the linear layer of arguments
    that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  show _ = Cert.KernelIdeal.Result.result m c
  rw [Cert.ReferenceIdeal.Read.val_main_v16_eq, Cert.ReferenceIdeal.RefValue.reference_eq, Cert.KernelIdeal.Result.result_eq,
    (hagree c).1, (hagree c).2.1, (hagree c).2.2.1, (hagree c).2.2.2.1, (hagree c).2.2.2.2.1, (hagree c).2.2.2.2.2.1,
    (hagree c).2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
